-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x112 : Shape := ⟨2, ![1024, 112]⟩
abbrev S112 : Shape := ⟨1, ![112]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x112 : S_.BroadcastsInDim S1024x112 (![] : Fin 0 → Fin S1024x112.rank)
  reducesTo_S1024x112_S_d0_1 : S1024x112.ReducesTo [0, 1] S_
  bcast_S_S112 : S_.BroadcastsInDim S112 (![] : Fin 0 → Fin S112.rank)
  reducesTo_S112_S_d0 : S112.ReducesTo [0] S_

variable [Facts]

def fn {F : FTy → Type} [FloatOps F] (main_arg0 : FVec F S4x2048x1024 .f32) (main_arg1 : FVec F S1024x112 .f32) (main_arg2 : FVec F S112 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x112 .f32 := Host.absf main_arg1
  let main_cst_0 : FVec F S_ .f32 := constant S_ .f32 0x7F800000#32
  let main_v5 : FVec F S1024x112 .f32 := broadcastInDim S1024x112 ![] bcast_S_S1024x112 main_cst_0
  let main_v6 : IVec S1024x112 1 := cmpf .olt main_v4 main_v5
  let main_c_1 : IVec S_ 1 := constantI S_ 1 1#1
  let main_v7 : IVec S_ 1 := (fun x v => Host.reduce IntOp.andi x v reducesTo_S1024x112_S_d0_1 h_S_) main_v6 main_c_1
  let main_v8 : IVec S_ 1 := andi main_v3 main_v7
  let main_v9 : FVec F S112 .f32 := Host.absf main_arg2
  let main_cst_2 : FVec F S_ .f32 := constant S_ .f32 0x7F800000#32
  let main_v10 : FVec F S112 .f32 := broadcastInDim S112 ![] bcast_S_S112 main_cst_2
  let main_v11 : IVec S112 1 := cmpf .olt main_v9 main_v10
  let main_c_3 : IVec S_ 1 := constantI S_ 1 1#1
  let main_v12 : IVec S_ 1 := (fun x v => Host.reduce IntOp.andi x v reducesTo_S112_S_d0 h_S_) main_v11 main_c_3
  let main_v13 : IVec S_ 1 := andi main_v8 main_v12
  main_v13
-- ==== Kernel.lean ====
abbrev S4x2048x1024 : Shape := ⟨3, ![4, 2048, 1024]⟩
abbrev S1024x112 : Shape := ⟨2, ![1024, 112]⟩
abbrev S112 : Shape := ⟨1, ![112]⟩
abbrev S1024x16x7 : Shape := ⟨3, ![1024, 16, 7]⟩
abbrev S1024x7x16 : Shape := ⟨3, ![1024, 7, 16]⟩
abbrev S16x7 : Shape := ⟨2, ![16, 7]⟩
abbrev S7x16 : Shape := ⟨2, ![7, 16]⟩
abbrev S16x16 : Shape := ⟨2, ![16, 16]⟩
abbrev S_ : Shape := ⟨0, ![]⟩
abbrev S16x16x64 : Shape := ⟨3, ![16, 16, 64]⟩
abbrev S16x1024 : Shape := ⟨2, ![16, 1024]⟩
abbrev S1x2048x1024 : Shape := ⟨3, ![1, 2048, 1024]⟩
abbrev S2048x1024 : Shape := ⟨2, ![2048, 1024]⟩
abbrev S2048x112 : Shape := ⟨2, ![2048, 112]⟩
abbrev S1x112 : Shape := ⟨2, ![1, 112]⟩
abbrev S3x1024 : Shape := ⟨2, ![3, 1024]⟩
abbrev S2051x1024 : Shape := ⟨2, ![2051, 1024]⟩
abbrev S2054x1024 : Shape := ⟨2, ![2054, 1024]⟩
abbrev S512x1024 : Shape := ⟨2, ![512, 1024]⟩
abbrev S512x16 : Shape := ⟨2, ![512, 16]⟩
abbrev S1x512x1024 : Shape := ⟨3, ![1, 512, 1024]⟩

abbrev nBuf : Space → Nat
  | .hbm => 19
  | .vmem => 7
  | .smem => 0
  | _ => 0

abbrev bufTy : (tb : Table) → Fin (tcTables nBuf tb) → BufTy
  | .hbm, ⟨0, _⟩ => ⟨S4x2048x1024, .f32⟩
  | .hbm, ⟨1, _⟩ => ⟨S1024x112, .f32⟩
  | .hbm, ⟨2, _⟩ => ⟨S112, .f32⟩
  | .hbm, ⟨3, _⟩ => ⟨S1024x16x7, .f32⟩
  | .hbm, ⟨4, _⟩ => ⟨S1024x7x16, .f32⟩
  | .hbm, ⟨5, _⟩ => ⟨S1024x112, .f32⟩
  | .hbm, ⟨6, _⟩ => ⟨S16x7, .f32⟩
  | .hbm, ⟨7, _⟩ => ⟨S7x16, .f32⟩
  | .hbm, ⟨8, _⟩ => ⟨S112, .f32⟩
  | .hbm, ⟨9, _⟩ => ⟨S16x16, .i32⟩
  | .hbm, ⟨10, _⟩ => ⟨S16x16, .i32⟩
  | .hbm, ⟨11, _⟩ => ⟨S_, .i32⟩
  | .hbm, ⟨12, _⟩ => ⟨S16x16, .i32⟩
  | .hbm, ⟨13, _⟩ => ⟨S16x16, .i32⟩
  | .hbm, ⟨14, _⟩ => ⟨S16x16, .i1⟩
  | .hbm, ⟨15, _⟩ => ⟨S16x16, .f32⟩
  | .hbm, ⟨16, _⟩ => ⟨S16x16x64, .f32⟩
  | .hbm, ⟨17, _⟩ => ⟨S16x1024, .f32⟩
  | .hbm, ⟨18, _⟩ => ⟨S4x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x112, .f32⟩
  | .local _ .vmem, ⟨3, _⟩ => ⟨S112, .f32⟩
  | .local _ .vmem, ⟨4, _⟩ => ⟨S16x1024, .f32⟩
  | .local _ .vmem, ⟨5, _⟩ => ⟨S1x2048x1024, .f32⟩
  | .local _ .vmem, ⟨6, _⟩ => ⟨S1x2048x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x112 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S112 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1024x112_S1024x16x7 : S1024x112.ShapeCasts S1024x16x7
  transposes_S1024x16x7_S1024x7x16_0_2_1 : S1024x16x7.Transposes [0, 2, 1] S1024x7x16
  shapeCasts_S1024x7x16_S1024x112 : S1024x7x16.ShapeCasts S1024x112
  shapeCasts_S112_S16x7 : S112.ShapeCasts S16x7
  transposes_S16x7_S7x16_1_0 : S16x7.Transposes [1, 0] S7x16
  shapeCasts_S7x16_S112 : S7x16.ShapeCasts S112
  bcast_S_S16x16 : S_.BroadcastsInDim S16x16 (![] : Fin 0 → Fin S16x16.rank)
  bcast_S16x16_S16x16x64_0_1 : S16x16.BroadcastsInDim S16x16x64 (![0, 1] : Fin 2 → Fin S16x16x64.rank)
  shapeCasts_S16x16x64_S16x1024 : S16x16x64.ShapeCasts S16x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x112_S1024x112_0_0 : ∀ a, (![0, 0] : Fin 2 → Nat) a + S1024x112.size a ≤ S1024x112.size a
  h_S1024x112 : 0 < S1024x112.numel
  shapeCasts_S1024x112_S1024x112 : S1024x112.ShapeCasts S1024x112
  inb_S112_S112_0 : ∀ a, (![0] : Fin 1 → Nat) a + S112.size a ≤ S112.size a
  h_S112 : 0 < S112.numel
  shapeCasts_S112_S112 : S112.ShapeCasts S112
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  bitsLt_bf16_f32 : FTy.bits .bf16 < FTy.bits .f32
  shapeCasts_S112_S1x112 : S112.ShapeCasts S1x112
  broadcasts_S1x112_S2048x112 : S1x112.Broadcasts S2048x112
  concatenates_S3x1024_S2048x1024_S2051x1024_d0 : Shape.Concatenates [S3x1024, S2048x1024] S2051x1024 0
  concatenates_S2051x1024_S3x1024_S2054x1024_d0 : Shape.Concatenates [S2051x1024, S3x1024] S2054x1024 0
  slices_S2048x112_o0_0_S512x16 : S2048x112.Slices ![0, 0] S512x16
  slices_S2054x1024_o0_0_S512x1024 : S2054x1024.Slices ![0, 0] S512x1024
  slices_S2048x112_o0_16_S512x16 : S2048x112.Slices ![0, 16] S512x16
  slices_S2054x1024_o1_0_S512x1024 : S2054x1024.Slices ![1, 0] S512x1024
  slices_S2048x112_o0_32_S512x16 : S2048x112.Slices ![0, 32] S512x16
  slices_S2054x1024_o2_0_S512x1024 : S2054x1024.Slices ![2, 0] S512x1024
  slices_S2048x112_o0_48_S512x16 : S2048x112.Slices ![0, 48] S512x16
  slices_S2054x1024_o3_0_S512x1024 : S2054x1024.Slices ![3, 0] S512x1024
  slices_S2048x112_o0_64_S512x16 : S2048x112.Slices ![0, 64] S512x16
  slices_S2054x1024_o4_0_S512x1024 : S2054x1024.Slices ![4, 0] S512x1024
  slices_S2048x112_o0_80_S512x16 : S2048x112.Slices ![0, 80] S512x16
  slices_S2054x1024_o5_0_S512x1024 : S2054x1024.Slices ![5, 0] S512x1024
  slices_S2048x112_o0_96_S512x16 : S2048x112.Slices ![0, 96] S512x16
  slices_S2054x1024_o6_0_S512x1024 : S2054x1024.Slices ![6, 0] S512x1024
  inb_S1x2048x1024_S1x512x1024_0_0_0 : ∀ a, (![0, 0, 0] : Fin 3 → Nat) a + S1x512x1024.size a ≤ S1x2048x1024.size a
  h_S1x512x1024 : 0 < S1x512x1024.numel
  shapeCasts_S1x512x1024_S512x1024 : S1x512x1024.ShapeCasts S512x1024
  shapeCasts_S512x1024_S1x512x1024 : S512x1024.ShapeCasts S1x512x1024
  slices_S2048x112_o512_0_S512x16 : S2048x112.Slices ![512, 0] S512x16
  slices_S2054x1024_o512_0_S512x1024 : S2054x1024.Slices ![512, 0] S512x1024
  slices_S2048x112_o512_16_S512x16 : S2048x112.Slices ![512, 16] S512x16
  slices_S2054x1024_o513_0_S512x1024 : S2054x1024.Slices ![513, 0] S512x1024
  slices_S2048x112_o512_32_S512x16 : S2048x112.Slices ![512, 32] S512x16
  slices_S2054x1024_o514_0_S512x1024 : S2054x1024.Slices ![514, 0] S512x1024
  slices_S2048x112_o512_48_S512x16 : S2048x112.Slices ![512, 48] S512x16
  slices_S2054x1024_o515_0_S512x1024 : S2054x1024.Slices ![515, 0] S512x1024
  slices_S2048x112_o512_64_S512x16 : S2048x112.Slices ![512, 64] S512x16
  slices_S2054x1024_o516_0_S512x1024 : S2054x1024.Slices ![516, 0] S512x1024
  slices_S2048x112_o512_80_S512x16 : S2048x112.Slices ![512, 80] S512x16
  slices_S2054x1024_o517_0_S512x1024 : S2054x1024.Slices ![517, 0] S512x1024
  slices_S2048x112_o512_96_S512x16 : S2048x112.Slices ![512, 96] S512x16
  slices_S2054x1024_o518_0_S512x1024 : S2054x1024.Slices ![518, 0] S512x1024
  inb_S1x2048x1024_S1x512x1024_0_512_0 : ∀ a, (![0, 512, 0] : Fin 3 → Nat) a + S1x512x1024.size a ≤ S1x2048x1024.size a
  slices_S2048x112_o1024_0_S512x16 : S2048x112.Slices ![1024, 0] S512x16
  slices_S2054x1024_o1024_0_S512x1024 : S2054x1024.Slices ![1024, 0] S512x1024
  slices_S2048x112_o1024_16_S512x16 : S2048x112.Slices ![1024, 16] S512x16
  slices_S2054x1024_o1025_0_S512x1024 : S2054x1024.Slices ![1025, 0] S512x1024
  slices_S2048x112_o1024_32_S512x16 : S2048x112.Slices ![1024, 32] S512x16
  slices_S2054x1024_o1026_0_S512x1024 : S2054x1024.Slices ![1026, 0] S512x1024
  slices_S2048x112_o1024_48_S512x16 : S2048x112.Slices ![1024, 48] S512x16
  slices_S2054x1024_o1027_0_S512x1024 : S2054x1024.Slices ![1027, 0] S512x1024
  slices_S2048x112_o1024_64_S512x16 : S2048x112.Slices ![1024, 64] S512x16
  slices_S2054x1024_o1028_0_S512x1024 : S2054x1024.Slices ![1028, 0] S512x1024
  slices_S2048x112_o1024_80_S512x16 : S2048x112.Slices ![1024, 80] S512x16
  slices_S2054x1024_o1029_0_S512x1024 : S2054x1024.Slices ![1029, 0] S512x1024
  slices_S2048x112_o1024_96_S512x16 : S2048x112.Slices ![1024, 96] S512x16
  slices_S2054x1024_o1030_0_S512x1024 : S2054x1024.Slices ![1030, 0] S512x1024
  inb_S1x2048x1024_S1x512x1024_0_1024_0 : ∀ a, (![0, 1024, 0] : Fin 3 → Nat) a + S1x512x1024.size a ≤ S1x2048x1024.size a
  slices_S2048x112_o1536_0_S512x16 : S2048x112.Slices ![1536, 0] S512x16
  slices_S2054x1024_o1536_0_S512x1024 : S2054x1024.Slices ![1536, 0] S512x1024
  slices_S2048x112_o1536_16_S512x16 : S2048x112.Slices ![1536, 16] S512x16
  slices_S2054x1024_o1537_0_S512x1024 : S2054x1024.Slices ![1537, 0] S512x1024
  slices_S2048x112_o1536_32_S512x16 : S2048x112.Slices ![1536, 32] S512x16
  slices_S2054x1024_o1538_0_S512x1024 : S2054x1024.Slices ![1538, 0] S512x1024
  slices_S2048x112_o1536_48_S512x16 : S2048x112.Slices ![1536, 48] S512x16
  slices_S2054x1024_o1539_0_S512x1024 : S2054x1024.Slices ![1539, 0] S512x1024
  slices_S2048x112_o1536_64_S512x16 : S2048x112.Slices ![1536, 64] S512x16
  slices_S2054x1024_o1540_0_S512x1024 : S2054x1024.Slices ![1540, 0] S512x1024
  slices_S2048x112_o1536_80_S512x16 : S2048x112.Slices ![1536, 80] S512x16
  slices_S2054x1024_o1541_0_S512x1024 : S2054x1024.Slices ![1541, 0] S512x1024
  slices_S2048x112_o1536_96_S512x16 : S2048x112.Slices ![1536, 96] S512x16
  slices_S2054x1024_o1542_0_S512x1024 : S2054x1024.Slices ![1542, 0] S512x1024
  inb_S1x2048x1024_S1x512x1024_0_1536_0 : ∀ a, (![0, 1536, 0] : Fin 3 → Nat) a + S1x512x1024.size a ≤ S1x2048x1024.size a
  dot_S2048x1024_S1024x112_S2048x112_1_0_0_1_n_n_wf : DotDims.WF S2048x1024 S1024x112 S2048x112 [1] [0] [0] [1] [] []
  dot_S512x16_S16x1024_S512x1024_1_0_0_1_n_n_wf : DotDims.WF S512x16 S16x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x2048x1024.size a
  hwx0_0 : ∀ i : grid0.Coords, EltTy.bits .f32 = 32 ∨ (Rect.block (s := S4x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x112.size a ≤ S1024x112.size a
  hwx0_1 : ∀ i : grid0.Coords, EltTy.bits .f32 = 32 ∨ (Rect.block (s := S1024x112) S1024x112.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S112.size a ≤ S112.size a
  hwx0_2 : ∀ i : grid0.Coords, EltTy.bits .f32 = 32 ∨ (Rect.block (s := S112) S112.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x1024.size a
  hwx0_3 : ∀ i : grid0.Coords, EltTy.bits .f32 = 32 ∨ (Rect.block (s := S16x1024) S16x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x1024.size a ≤ S4x2048x1024.size a
  hwx0_4 : ∀ i : grid0.Coords, EltTy.bits .f32 = 32 ∨ (Rect.block (s := S4x2048x1024) S1x2048x1024.size (cc0_transform_4 i) (hinb0_4 i)).WholeWords (EltTy.packing .f32)

variable [Facts₀]

def dot_S2048x1024_S1024x112_S2048x112_1_0_0_1_n_n : DotDims S2048x1024 S1024x112 S2048x112 where
  lhsContracting := [1]
  rhsContracting := [0]
  lhsNonContracting := [0]
  rhsNonContracting := [1]
  lhsBatch := []
  rhsBatch := []
  wf := dot_S2048x1024_S1024x112_S2048x112_1_0_0_1_n_n_wf
def dot_S512x16_S16x1024_S512x1024_1_0_0_1_n_n : DotDims S512x16 S16x1024 S512x1024 where
  lhsContracting := [1]
  rhsContracting := [0]
  lhsNonContracting := [0]
  rhsNonContracting := [1]
  lhsBatch := []
  rhsBatch := []
  wf := dot_S512x16_S16x1024_S512x1024_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x112.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S112.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S16x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x112 : Shape := ⟨2, ![1024, 112]⟩
abbrev S112 : Shape := ⟨1, ![112]⟩
abbrev S4x2048x112 : Shape := ⟨3, ![4, 2048, 112]⟩
abbrev S1x1x112 : Shape := ⟨3, ![1, 1, 112]⟩
abbrev S4x2048x16x7 : Shape := ⟨4, ![4, 2048, 16, 7]⟩
abbrev S4x2048x16x64 : Shape := ⟨4, ![4, 2048, 16, 64]⟩
abbrev S_ : Shape := ⟨0, ![]⟩
abbrev S4x2054x16x64 : Shape := ⟨4, ![4, 2054, 16, 64]⟩
abbrev S4x2048x16x1 : Shape := ⟨4, ![4, 2048, 16, 1]⟩

abbrev nBuf : Space → Nat
  | .hbm => 78
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x112, .f32⟩
  | .hbm, ⟨2, _⟩ => ⟨S112, .f32⟩
  | .hbm, ⟨3, _⟩ => ⟨S4x2048x112, .f32⟩
  | .hbm, ⟨4, _⟩ => ⟨S1x1x112, .f32⟩
  | .hbm, ⟨5, _⟩ => ⟨S4x2048x112, .f32⟩
  | .hbm, ⟨6, _⟩ => ⟨S4x2048x112, .f32⟩
  | .hbm, ⟨7, _⟩ => ⟨S4x2048x16x7, .f32⟩
  | .hbm, ⟨8, _⟩ => ⟨S4x2048x16x64, .f32⟩
  | .hbm, ⟨9, _⟩ => ⟨S_, .i32⟩
  | .hbm, ⟨10, _⟩ => ⟨S_, .f32⟩
  | .hbm, ⟨11, _⟩ => ⟨S4x2054x16x64, .f32⟩
  | .hbm, ⟨12, _⟩ => ⟨S_, .f32⟩
  | .hbm, ⟨13, _⟩ => ⟨S4x2048x16x64, .f32⟩
  | .hbm, ⟨14, _⟩ => ⟨S4x2048x16x1, .f32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S4x2048x16x64, .f32⟩
  | .hbm, ⟨20, _⟩ => ⟨S4x2048x16x64, .f32⟩
  | .hbm, ⟨21, _⟩ => ⟨S4x2048x16x64, .f32⟩
  | .hbm, ⟨22, _⟩ => ⟨S4x2048x16x64, .f32⟩
  | .hbm, ⟨23, _⟩ => ⟨S4x2048x16x1, .f32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S4x2048x16x64, .f32⟩
  | .hbm, ⟨29, _⟩ => ⟨S4x2048x16x64, .f32⟩
  | .hbm, ⟨30, _⟩ => ⟨S4x2048x16x64, .f32⟩
  | .hbm, ⟨31, _⟩ => ⟨S4x2048x16x64, .f32⟩
  | .hbm, ⟨32, _⟩ => ⟨S4x2048x16x1, .f32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S4x2048x16x64, .f32⟩
  | .hbm, ⟨38, _⟩ => ⟨S4x2048x16x64, .f32⟩
  | .hbm, ⟨39, _⟩ => ⟨S4x2048x16x64, .f32⟩
  | .hbm, ⟨40, _⟩ => ⟨S4x2048x16x64, .f32⟩
  | .hbm, ⟨41, _⟩ => ⟨S4x2048x16x1, .f32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S4x2048x16x64, .f32⟩
  | .hbm, ⟨47, _⟩ => ⟨S4x2048x16x64, .f32⟩
  | .hbm, ⟨48, _⟩ => ⟨S4x2048x16x64, .f32⟩
  | .hbm, ⟨49, _⟩ => ⟨S4x2048x16x64, .f32⟩
  | .hbm, ⟨50, _⟩ => ⟨S4x2048x16x1, .f32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S4x2048x16x64, .f32⟩
  | .hbm, ⟨56, _⟩ => ⟨S4x2048x16x64, .f32⟩
  | .hbm, ⟨57, _⟩ => ⟨S4x2048x16x64, .f32⟩
  | .hbm, ⟨58, _⟩ => ⟨S4x2048x16x64, .f32⟩
  | .hbm, ⟨59, _⟩ => ⟨S4x2048x16x1, .f32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S4x2048x16x64, .f32⟩
  | .hbm, ⟨65, _⟩ => ⟨S4x2048x16x64, .f32⟩
  | .hbm, ⟨66, _⟩ => ⟨S4x2048x16x64, .f32⟩
  | .hbm, ⟨67, _⟩ => ⟨S4x2048x16x64, .f32⟩
  | .hbm, ⟨68, _⟩ => ⟨S4x2048x16x1, .f32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S4x2048x16x64, .f32⟩
  | .hbm, ⟨74, _⟩ => ⟨S4x2048x16x64, .f32⟩
  | .hbm, ⟨75, _⟩ => ⟨S4x2048x16x64, .f32⟩
  | .hbm, ⟨76, _⟩ => ⟨S4x2048x16x64, .f32⟩
  | .hbm, ⟨77, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_c_1 : Ref sig .tc := ⟨.hbm, 16, rfl⟩
abbrev main_c_2 : Ref sig .tc := ⟨.hbm, 17, rfl⟩
abbrev main_c_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_4 : Ref sig .tc := ⟨.hbm, 24, rfl⟩
abbrev main_c_5 : Ref sig .tc := ⟨.hbm, 25, rfl⟩
abbrev main_c_6 : Ref sig .tc := ⟨.hbm, 26, rfl⟩
abbrev main_c_7 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_8 : Ref sig .tc := ⟨.hbm, 33, rfl⟩
abbrev main_c_9 : Ref sig .tc := ⟨.hbm, 34, rfl⟩
abbrev main_c_10 : Ref sig .tc := ⟨.hbm, 35, rfl⟩
abbrev main_c_11 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_12 : Ref sig .tc := ⟨.hbm, 42, rfl⟩
abbrev main_c_13 : Ref sig .tc := ⟨.hbm, 43, rfl⟩
abbrev main_c_14 : Ref sig .tc := ⟨.hbm, 44, rfl⟩
abbrev main_c_15 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_16 : Ref sig .tc := ⟨.hbm, 51, rfl⟩
abbrev main_c_17 : Ref sig .tc := ⟨.hbm, 52, rfl⟩
abbrev main_c_18 : Ref sig .tc := ⟨.hbm, 53, rfl⟩
abbrev main_c_19 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_20 : Ref sig .tc := ⟨.hbm, 60, rfl⟩
abbrev main_c_21 : Ref sig .tc := ⟨.hbm, 61, rfl⟩
abbrev main_c_22 : Ref sig .tc := ⟨.hbm, 62, rfl⟩
abbrev main_c_23 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_c_24 : Ref sig .tc := ⟨.hbm, 69, rfl⟩
abbrev main_c_25 : Ref sig .tc := ⟨.hbm, 70, rfl⟩
abbrev main_c_26 : Ref sig .tc := ⟨.hbm, 71, rfl⟩
abbrev main_c_27 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩

abbrev nD : Nat := 1
abbrev τ : Topo := Topo.v7x

variable {F : FTy → Type} [FloatOps F]

class Facts₀ : Prop where
  bcast_S112_S1x1x112_2 : S112.BroadcastsInDim S1x1x112 (![2] : Fin 1 → Fin S1x1x112.rank)
  bcast_S1x1x112_S4x2048x112_0_1_2 : S1x1x112.BroadcastsInDim S4x2048x112 (![0, 1, 2] : Fin 3 → Fin S4x2048x112.rank)
  shapeCasts_S4x2048x112_S4x2048x16x7 : S4x2048x112.ShapeCasts S4x2048x16x7
  shapeCasts_S4x2048x1024_S4x2048x16x64 : S4x2048x1024.ShapeCasts S4x2048x16x64
  pads_S4x2048x16x64_S4x2054x16x64_000_330_000_000 : S4x2048x16x64.Pads (![0, 3, 0, 0] : Fin 4 → Nat) ![0, 3, 0, 0] ![0, 0, 0, 0] S4x2054x16x64
  h_S_ : 0 < S_.numel
  bcast_S_S4x2048x16x64 : S_.BroadcastsInDim S4x2048x16x64 (![] : Fin 0 → Fin S4x2048x16x64.rank)
  slices_S4x2048x16x7_S4x2048x16x1_0_0_0_0 : S4x2048x16x7.Slices ![0, 0, 0, 0] S4x2048x16x1
  sliceFits_S4x2054x16x64_S4x2048x16x64 : S4x2054x16x64.Slices (fun _ => 0) S4x2048x16x64
  bcast_S4x2048x16x1_S4x2048x16x64_0_1_2_3 : S4x2048x16x1.BroadcastsInDim S4x2048x16x64 (![0, 1, 2, 3] : Fin 4 → Fin S4x2048x16x64.rank)
  slices_S4x2048x16x7_S4x2048x16x1_0_0_0_1 : S4x2048x16x7.Slices ![0, 0, 0, 1] S4x2048x16x1
  slices_S4x2048x16x7_S4x2048x16x1_0_0_0_2 : S4x2048x16x7.Slices ![0, 0, 0, 2] S4x2048x16x1
  slices_S4x2048x16x7_S4x2048x16x1_0_0_0_3 : S4x2048x16x7.Slices ![0, 0, 0, 3] S4x2048x16x1
  slices_S4x2048x16x7_S4x2048x16x1_0_0_0_4 : S4x2048x16x7.Slices ![0, 0, 0, 4] S4x2048x16x1
  slices_S4x2048x16x7_S4x2048x16x1_0_0_0_5 : S4x2048x16x7.Slices ![0, 0, 0, 5] S4x2048x16x1
  slices_S4x2048x16x7_S4x2048x16x1_0_0_0_6 : S4x2048x16x7.Slices ![0, 0, 0, 6] S4x2048x16x1
  shapeCasts_S4x2048x16x64_S4x2048x1024 : S4x2048x16x64.ShapeCasts S4x2048x1024
  dot_S4x2048x1024_S1024x112_S4x2048x112_2_0_01_1_n_n_wf : DotDims.WF S4x2048x1024 S1024x112 S4x2048x112 [2] [0] [0, 1] [1] [] []

variable [Facts₀]

def dot_S4x2048x1024_S1024x112_S4x2048x112_2_0_01_1_n_n : DotDims S4x2048x1024 S1024x112 S4x2048x112 where
  lhsContracting := [2]
  rhsContracting := [0]
  lhsNonContracting := [0, 1]
  rhsNonContracting := [1]
  lhsBatch := []
  rhsBatch := []
  wf := dot_S4x2048x1024_S1024x112_S4x2048x112_2_0_01_1_n_n_wf

class Facts : Prop extends Facts₀ where

variable [Facts]
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.ConvSpec.lean ====
/-
  Dynamic depthwise convolution over a sequence, as one function of the three argument arrays.

  For an input x of shape (4, 2048, 1024), a weight matrix W of shape (1024, 112) and a bias of length 112, each
  position (b, s) predicts, for each of 16 heads h and each of 7 taps i, the weight
      weight (b, s, h, i) = (sum over cc of x (b, s, cc) · W (cc, 7·h + i)) + bias (7·h + i).
  The sequence axis is padded by three zero rows at either end; row r of the padded sequence is x (b, r - 3, ·) for
  3 ≤ r < 2051 and zero elsewhere. Channel c belongs to head c / 64. The output at (b, s, c) is the sum, accumulated
  from zero tap by tap in the order i = 0, …, 6, of weight (b, s, c / 64, i) · padded (b, s + i, c).
  Everything is read on the extended reals, where addition and multiplication are the exact ones.

  The convolution of ONE batch entry is stated first over plain functions of coordinates (a sequence `xs s c`, a
  prediction matrix `w cc h i` already split into head and tap, a bias `bs h i`), so that two programs that store the
  prediction matrix's columns in different orders meet in the same term.
-/
import Idealize.ShloMosaic.Lib.ValueIdx
import Idealize.ShloMosaic.PureOps.Ideal

noncomputable section

namespace Cert.DynConv

open Idealize.ShloMosaic Idealize.ShloMosaic.ValueIdx

section OneBatch

variable (xs : Fin 2048 → Fin 1024 → EReal) (w : Fin 1024 → Fin 16 → Fin 7 → EReal) (bs : Fin 16 → Fin 7 → EReal)

/-- The predicted weight of head `h`, tap `i` at position `s`. -/
def weight (s : Fin 2048) (h : Fin 16) (i : Fin 7) : EReal :=
  (∑ cc : Fin 1024, xs s cc * w cc h i) + bs h i

/-- Row `r` of the sequence padded by three zero rows at either end, at channel `c`. -/
def padded (r : ℕ) (c : Fin 1024) : EReal :=
  if h : 3 ≤ r ∧ r < 2051 then xs (⟨r - 3, by omega⟩ : Fin 2048) c else 0

/-- Tap `i`'s term of the output at (s, c): the weight of channel `c`'s head times the padded row `s + i`. -/
def tap (s : Fin 2048) (c : Fin 1024) (i : Fin 7) : EReal :=
  weight xs w bs s (⟨c.val / 64, by omega⟩ : Fin 16) i * padded xs (s.val + i.val) c

/-- The output at (s, c): the seven taps accumulated from zero, in order. -/
def conv (s : Fin 2048) (c : Fin 1024) : EReal :=
  0 + tap xs w bs s c 0 + tap xs w bs s c 1 + tap xs w bs s c 2 + tap xs w bs s c 3
    + tap xs w bs s c 4 + tap xs w bs s c 5 + tap xs w bs s c 6

end OneBatch

/-- The input's shape: batch × sequence × channels. -/
abbrev SX : Shape := ⟨3, ![4, 2048, 1024]⟩
/-- The prediction matrix's shape: channels × (heads · taps), column 7·h + i for head h and tap i. -/
abbrev SW : Shape := ⟨2, ![1024, 112]⟩
/-- The prediction bias's shape. -/
abbrev SB : Shape := ⟨1, ![112]⟩

variable (x : FVec Ideal SX .f32) (W : FVec Ideal SW .f32) (bias : FVec Ideal SB .f32)

/-- Batch entry `b` of the input, by coordinates. -/
def seqOf (b : Fin 4) : Fin 2048 → Fin 1024 → EReal := fun s c => x (ix3 b s c)

/-- The prediction matrix split into head and tap: column 7·h + i. -/
def headTap : Fin 1024 → Fin 16 → Fin 7 → EReal := fun cc h i => W (ix2 cc (⟨7 * h.val + i.val, by omega⟩ : Fin 112))

/-- The prediction bias split into head and tap: entry 7·h + i. -/
def headTapBias : Fin 16 → Fin 7 → EReal := fun h i => bias (ix1 (⟨7 * h.val + i.val, by omega⟩ : Fin 112))

/-- The whole output array. -/
def G : FVec Ideal SX .f32 := fun j => conv (seqOf x (j 0)) (headTap W) (headTapBias bias) (j 1) (j 2)

theorem G_ix3 (b : Fin 4) (s : Fin 2048) (c : Fin 1024) :
    G x W bias (ix3 b s c) = conv (seqOf x b) (headTap W) (headTapBias bias) s c := rfl

end Cert.DynConv

end
-- ==== Proof.KernelTaps.lean ====
/-
  One tap of the kernel's body, read at an index on the extended reals.

  The body predicts all weights at once, kf = x · Wr + br (a 2048 × 112 array whose column 16·i + h is tap i of head h),
  pads the 2048 × 1024 block of x with three zero rows at either end (xp, 2054 rows), and then, for each block of 512
  rows starting at row a and each tap i, multiplies the 512 × 16 slice of kf at columns 16·i … 16·i + 15 with a fixed
  16 × 1024 matrix e, and multiplies the result entry by entry with rows a + i … a + i + 511 of xp. When e (k, q) is 1
  for k = q / 64 and 0 otherwise, the product with e picks column 16·i + q / 64 of kf: the entry (p, q) of that tap is
      kf (a + p, 16·i + q / 64) · xp (a + i + p, q),
  the tap term of the convolution at row a + p. Only 0 + t = t, t · 0 = 0, t · 1 = t and the re-indexing of a finite
  sum are used: nothing needs the entries to be finite.
-/
import proofs.«165437_j30648886624828_1_alg».proof.Proof.Gen.KernelIdeal.Skeleton
import proofs.«165437_j30648886624828_1_alg».proof.Proof.LibDot
import proofs.«165437_j30648886624828_1_alg».proof.Proof.ConvSpec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Taps

open Cert.KernelIdeal Cert.KernelIdeal.Gen Idealize.ShloMosaic Idealize.ShloMosaic.ValueIdx

/-- One tap of one block of rows: the 512 × 16 slice of the weights at (a, b) times the head-to-channel matrix `e`,
    times rows o … o + 511 of the padded block, entry by entry. -/
def tapV (kf : FVec Ideal S2048x112 .f32) (e : FVec Ideal S16x1024 .bf16) (xp : FVec Ideal S2054x1024 .f32)
    (a b o : ℕ) (h1 : S2048x112.Slices ![a, b] S512x16) (h2 : S2054x1024.Slices ![o, 0] S512x1024) :
    FVec Ideal S512x1024 .f32 :=
  mulf (matmul dot_S512x16_S16x1024_S512x1024_1_0_0_1_n_n none
      (truncf .bf16 (extractStridedSlice S512x16 ![a, b] kf h1) (by decide)) e (constant S512x1024 .f32 0x00000000#32))
    (extractStridedSlice S512x1024 ![o, 0] xp h2)

/-- The tap at (p, q): the contraction of row a + p of the weights' slice with column q of `e`, times the padded
    block at (o + p, q). -/
theorem tapV_apply (kf : FVec Ideal S2048x112 .f32) (e : FVec Ideal S16x1024 .bf16) (xp : FVec Ideal S2054x1024 .f32)
    (a b o : ℕ) (h1 : S2048x112.Slices ![a, b] S512x16) (h2 : S2054x1024.Slices ![o, 0] S512x1024)
    (ha : a + 512 ≤ 2048) (hb : b + 16 ≤ 112) (ho : o + 512 ≤ 2054) (p : Fin 512) (q : Fin 1024) :
    tapV kf e xp a b o h1 h2 (ix2 p q)
      = (∑ k : Fin 16, kf (ix2 (⟨a + p.val, by omega⟩ : Fin 2048) (⟨b + k.val, by omega⟩ : Fin 112)) * e (ix2 k q))
        * xp (ix2 (⟨o + p.val, by omega⟩ : Fin 2054) q) := by
  unfold tapV
  rw [mulf_apply]
  congr 1
  · refine (Cert.LibDot.matmul_zero_plain_apply dot_S512x16_S16x1024_S512x1024_1_0_0_1_n_n rfl rfl rfl rfl rfl rfl none _ e
      (ix2 p q)).trans ?_
    refine Finset.sum_congr rfl fun k _ => ?_
    congr 1
    exact extractStridedSlice_apply ![a, b] kf h1 (ix2 p k) _ (fun ax => match ax with
      | ⟨0, _⟩ => rfl
      | ⟨1, _⟩ => rfl)
  · exact extractStridedSlice_apply ![o, 0] xp h2 (ix2 p q) _ (fun ax => match ax with
      | ⟨0, _⟩ => rfl
      | ⟨1, _⟩ => by show q.val = 0 + q.val; omega)

/-! ## The three values every tap reads -/

/-- The predicted weights: entry (s, j) is the contraction of row s of the block with column j of the regrouped
    prediction matrix, plus the regrouped bias at j. -/
theorem weights_apply (x0 : FVec Ideal S1x2048x1024 .f32) (x1 : FVec Ideal S1024x112 .f32) (x2 : FVec Ideal S112 .f32)
    (s : Fin 2048) (j : Fin 112) :
    k0_pay4 (F := Ideal) x0 x1 x2 (ix2 s j) = (∑ cc : Fin 1024, x0 (ix3 (0 : Fin 1) s cc) * x1 (ix2 cc j)) + x2 (ix1 j) := by
  unfold k0_pay4 k0_pay2
  dsimp only
  rw [addf_apply]
  congr 1
  · refine (Cert.LibDot.matmul_zero_plain_apply dot_S2048x1024_S1024x112_S2048x112_1_0_0_1_n_n rfl rfl rfl rfl rfl rfl none _ _
      (ix2 s j)).trans ?_
    refine Finset.sum_congr rfl fun cc _ => ?_
    congr 1
    · exact shapeCast_1ab_ab_apply x0 _ s cc
    · rw [truncf_apply, shapeCast_self]
  · refine (broadcastTo_1b_ab_apply _ _ s j).trans ?_
    refine (shapeCast_a_1a_apply _ _ (0 : Fin 1) j).trans ?_
    rw [shapeCast_self]

/-- The padded block: three zero rows, the block's 2048 rows, three zero rows. -/
theorem padded_apply (x0 : FVec Ideal S1x2048x1024 .f32) (r : Fin 2054) (q : Fin 1024) :
    k0_pay5 (F := Ideal) x0 (ix2 r q)
      = Cert.DynConv.padded (fun s c => x0 (ix3 (0 : Fin 1) s c)) r.val q := by
  unfold k0_pay5 k0_pay2 Cert.DynConv.padded
  dsimp only
  by_cases hr : r.val < 2051
  · -- inside the first 2051 rows: the inner concatenation
    refine (concatenate_pair_apply_left (t := S2054x1024) (s₁ := S2051x1024) (s₂ := S3x1024) (0 : Fin 2) _ _ _ (ix2 r q) rfl
      (ix2 (⟨r.val, hr⟩ : Fin 2051) q) (fun b => match b with | ⟨0, _⟩ => rfl | ⟨1, _⟩ => rfl)).trans ?_
    by_cases h3 : r.val < 3
    · rw [dif_neg (by omega)]
      refine (concatenate_pair_apply_left (t := S2051x1024) (s₁ := S3x1024) (s₂ := S2048x1024) (0 : Fin 2) _ _ _
        (ix2 (⟨r.val, hr⟩ : Fin 2051) q) rfl (ix2 (⟨r.val, h3⟩ : Fin 3) q)
        (fun b => match b with | ⟨0, _⟩ => rfl | ⟨1, _⟩ => rfl)).trans ?_
      show ((((0#32 : BitVec 32).toInt : ℝ)) : EReal) = 0
      simp
    · rw [dif_pos ⟨by omega, hr⟩]
      refine (concatenate_pair_apply_right (t := S2051x1024) (s₁ := S3x1024) (s₂ := S2048x1024) (0 : Fin 2) _ _ _
        (ix2 (⟨r.val, hr⟩ : Fin 2051) q) rfl rfl (ix2 (⟨r.val - 3, by omega⟩ : Fin 2048) q)
        (fun b hb => match b, hb with | ⟨0, _⟩, hb => absurd rfl hb | ⟨1, _⟩, _ => rfl)
        (by show (r.val - 3) + 3 = r.val; omega)).trans ?_
      exact shapeCast_1ab_ab_apply x0 _ _ q
  · rw [dif_neg (by omega)]
    have hlt := r.isLt
    refine (concatenate_pair_apply_right (t := S2054x1024) (s₁ := S2051x1024) (s₂ := S3x1024) (0 : Fin 2) _ _ _ (ix2 r q) rfl rfl
      (ix2 (⟨r.val - 2051, by omega⟩ : Fin 3) q)
      (fun b hb => match b, hb with | ⟨0, _⟩, hb => absurd rfl hb | ⟨1, _⟩, _ => rfl)
      (by show (r.val - 2051) + 2051 = r.val; omega)).trans ?_
    show ((((0#32 : BitVec 32).toInt : ℝ)) : EReal) = 0
    simp

/-- The head-to-channel matrix in its narrow format is the matrix itself. -/
theorem expand_apply (x3 : FVec Ideal S16x1024 .f32) (k : Fin 16) (q : Fin 1024) :
    k0_pay3 (F := Ideal) x3 (ix2 k q) = x3 (ix2 k q) := by
  unfold k0_pay3
  rw [truncf_apply, shapeCast_self]

/-! ## A tap is the convolution's tap term -/

section Tap

variable (x0 : FVec Ideal S1x2048x1024 .f32) (x1 : FVec Ideal S1024x112 .f32) (x2 : FVec Ideal S112 .f32)
  (x3 : FVec Ideal S16x1024 .f32)

/-- The block of x by coordinates. -/
def blockSeq : Fin 2048 → Fin 1024 → EReal := fun s c => x0 (ix3 (0 : Fin 1) s c)
/-- The regrouped prediction matrix split into head and tap: column 16·i + h. -/
def tapHead : Fin 1024 → Fin 16 → Fin 7 → EReal := fun cc h i => x1 (ix2 cc (⟨16 * i.val + h.val, by omega⟩ : Fin 112))
/-- The regrouped bias split into head and tap: entry 16·i + h. -/
def tapHeadBias : Fin 16 → Fin 7 → EReal := fun h i => x2 (ix1 (⟨16 * i.val + h.val, by omega⟩ : Fin 112))

/-- With the head-to-channel matrix 1 at (q / 64, q) and 0 elsewhere in column q, tap `i` of the block of rows at `a`
    is, at (p, q), the convolution's tap term at row a + p. -/
theorem tap_eq (hE : ∀ (k : Fin 16) (q : Fin 1024), x3 (ix2 k q) = if q.val / 64 = k.val then 1 else 0)
    (a b o : ℕ) (i : Fin 7) (hb : b = 16 * i.val) (ho : o = a + i.val) (ha : a + 512 ≤ 2048)
    (h1 : S2048x112.Slices ![a, b] S512x16) (h2 : S2054x1024.Slices ![o, 0] S512x1024) (p : Fin 512) (q : Fin 1024) :
    tapV (k0_pay4 (F := Ideal) x0 x1 x2) (k0_pay3 (F := Ideal) x3) (k0_pay5 (F := Ideal) x0) a b o h1 h2 (ix2 p q)
      = Cert.DynConv.tap (blockSeq x0) (tapHead x1) (tapHeadBias x2) (⟨a + p.val, by omega⟩ : Fin 2048) q i := by
  subst hb ho
  have hi := i.isLt
  have hq := q.isLt
  rw [tapV_apply _ _ _ a (16 * i.val) (a + i.val) h1 h2 ha (by omega) (by omega) p q]
  unfold Cert.DynConv.tap
  congr 1
  · -- the product with the 0/1 matrix picks the column of channel q's head
    rw [Finset.sum_eq_single (⟨q.val / 64, by omega⟩ : Fin 16)]
    · rw [expand_apply, hE, if_pos rfl, mul_one, weights_apply]
      rfl
    · intro k _ hk
      rw [expand_apply, hE, if_neg (fun h => hk (Fin.ext h.symm)), mul_zero]
    · intro h; exact absurd (Finset.mem_univ _) h
  · rw [padded_apply]
    show Cert.DynConv.padded (blockSeq x0) (a + i.val + p.val) q = Cert.DynConv.padded (blockSeq x0) (a + p.val + i.val) q
    rw [show a + i.val + p.val = a + p.val + i.val by omega]

end Tap

end Cert.KernelIdeal.Taps

end
-- ==== Proof.KernelPieces.lean ====
/-
  What the kernel's body leaves in the output block, read at an index.

  The body writes the 2048 × 1024 output block in four stores of 512 rows. Each store's value is the zero splat plus
  seven taps (the weights' slice times the head-to-channel matrix, times the shifted rows of the padded block), so at
  (p, q) it is the convolution at row a + p of the block for the store at row a. The four stores tile the block, hence
  the block after the body is the convolution of the block of x at every index.
-/
import proofs.«165437_j30648886624828_1_alg».proof.Proof.Gen.KernelIdeal.Frame
import proofs.«165437_j30648886624828_1_alg».proof.Proof.KernelTaps

set_option maxRecDepth 16384

noncomputable section

namespace Cert.KernelIdeal.Pieces

open Cert.KernelIdeal Cert.KernelIdeal.Gen Cert.KernelIdeal.Taps Idealize.ShloMosaic Idealize.ShloMosaic.ValueIdx

section

variable (x0 : FVec Ideal S1x2048x1024 .f32) (x1 : FVec Ideal S1024x112 .f32) (x2 : FVec Ideal S112 .f32)
  (x3 : FVec Ideal S16x1024 .f32)
  (hE : ∀ (k : Fin 16) (q : Fin 1024), x3 (ix2 k q) = if q.val / 64 = k.val then 1 else 0)
include hE

/-- Rows 0 … 511 of the block: the seven taps accumulated from zero are the convolution at row 0 + p. -/
theorem piece0 (u : Fin 1) (p : Fin 512) (q : Fin 1024) :
    (k0_pay8 (F := Ideal) (k0_pay3 (F := Ideal) x3) (k0_pay4 (F := Ideal) x0 x1 x2) (k0_pay5 (F := Ideal) x0) (k0_pay6 (F := Ideal) x0 x1 x2 x3) (k0_pay7 (F := Ideal) x0 x1 x2 x3)) (ix3 u p q)
      = Cert.DynConv.conv (blockSeq x0) (tapHead x1) (tapHeadBias x2) (⟨0 + p.val, by omega⟩ : Fin 2048) q := by
  unfold k0_pay8 k0_pay6 k0_pay7
  dsimp only
  refine (shapeCast_ab_1ab_apply _ _ u p q).trans ?_
  show (Ideal.ofBits .f32 0x00000000#32 : EReal)
        + tapV (k0_pay4 (F := Ideal) x0 x1 x2) (k0_pay3 (F := Ideal) x3) (k0_pay5 (F := Ideal) x0) 0 0 0 (by decide) (by decide) (ix2 p q)
        + tapV (k0_pay4 (F := Ideal) x0 x1 x2) (k0_pay3 (F := Ideal) x3) (k0_pay5 (F := Ideal) x0) 0 16 1 (by decide) (by decide) (ix2 p q)
        + tapV (k0_pay4 (F := Ideal) x0 x1 x2) (k0_pay3 (F := Ideal) x3) (k0_pay5 (F := Ideal) x0) 0 32 2 (by decide) (by decide) (ix2 p q)
        + tapV (k0_pay4 (F := Ideal) x0 x1 x2) (k0_pay3 (F := Ideal) x3) (k0_pay5 (F := Ideal) x0) 0 48 3 (by decide) (by decide) (ix2 p q)
        + tapV (k0_pay4 (F := Ideal) x0 x1 x2) (k0_pay3 (F := Ideal) x3) (k0_pay5 (F := Ideal) x0) 0 64 4 (by decide) (by decide) (ix2 p q)
        + tapV (k0_pay4 (F := Ideal) x0 x1 x2) (k0_pay3 (F := Ideal) x3) (k0_pay5 (F := Ideal) x0) 0 80 5 (by decide) (by decide) (ix2 p q)
        + tapV (k0_pay4 (F := Ideal) x0 x1 x2) (k0_pay3 (F := Ideal) x3) (k0_pay5 (F := Ideal) x0) 0 96 6 (by decide) (by decide) (ix2 p q) = _
  rw [tap_eq x0 x1 x2 x3 hE 0 0 0 0 rfl rfl (by omega),
    tap_eq x0 x1 x2 x3 hE 0 16 1 1 rfl rfl (by omega),
    tap_eq x0 x1 x2 x3 hE 0 32 2 2 rfl rfl (by omega),
    tap_eq x0 x1 x2 x3 hE 0 48 3 3 rfl rfl (by omega),
    tap_eq x0 x1 x2 x3 hE 0 64 4 4 rfl rfl (by omega),
    tap_eq x0 x1 x2 x3 hE 0 80 5 5 rfl rfl (by omega),
    tap_eq x0 x1 x2 x3 hE 0 96 6 6 rfl rfl (by omega),
    Ideal.ofBits_zero_f32]
  rfl

/-- Rows 512 … 1023 of the block: the seven taps accumulated from zero are the convolution at row 512 + p. -/
theorem piece1 (u : Fin 1) (p : Fin 512) (q : Fin 1024) :
    (k0_pay11 (F := Ideal) (k0_pay3 (F := Ideal) x3) (k0_pay4 (F := Ideal) x0 x1 x2) (k0_pay5 (F := Ideal) x0) (k0_pay9 (F := Ideal) (k0_pay3 (F := Ideal) x3) (k0_pay4 (F := Ideal) x0 x1 x2) (k0_pay5 (F := Ideal) x0)) (k0_pay10 (F := Ideal) (k0_pay4 (F := Ideal) x0 x1 x2))) (ix3 u p q)
      = Cert.DynConv.conv (blockSeq x0) (tapHead x1) (tapHeadBias x2) (⟨512 + p.val, by omega⟩ : Fin 2048) q := by
  unfold k0_pay11 k0_pay9 k0_pay10
  dsimp only
  refine (shapeCast_ab_1ab_apply _ _ u p q).trans ?_
  show (Ideal.ofBits .f32 0x00000000#32 : EReal)
        + tapV (k0_pay4 (F := Ideal) x0 x1 x2) (k0_pay3 (F := Ideal) x3) (k0_pay5 (F := Ideal) x0) 512 0 512 (by decide) (by decide) (ix2 p q)
        + tapV (k0_pay4 (F := Ideal) x0 x1 x2) (k0_pay3 (F := Ideal) x3) (k0_pay5 (F := Ideal) x0) 512 16 513 (by decide) (by decide) (ix2 p q)
        + tapV (k0_pay4 (F := Ideal) x0 x1 x2) (k0_pay3 (F := Ideal) x3) (k0_pay5 (F := Ideal) x0) 512 32 514 (by decide) (by decide) (ix2 p q)
        + tapV (k0_pay4 (F := Ideal) x0 x1 x2) (k0_pay3 (F := Ideal) x3) (k0_pay5 (F := Ideal) x0) 512 48 515 (by decide) (by decide) (ix2 p q)
        + tapV (k0_pay4 (F := Ideal) x0 x1 x2) (k0_pay3 (F := Ideal) x3) (k0_pay5 (F := Ideal) x0) 512 64 516 (by decide) (by decide) (ix2 p q)
        + tapV (k0_pay4 (F := Ideal) x0 x1 x2) (k0_pay3 (F := Ideal) x3) (k0_pay5 (F := Ideal) x0) 512 80 517 (by decide) (by decide) (ix2 p q)
        + tapV (k0_pay4 (F := Ideal) x0 x1 x2) (k0_pay3 (F := Ideal) x3) (k0_pay5 (F := Ideal) x0) 512 96 518 (by decide) (by decide) (ix2 p q) = _
  rw [tap_eq x0 x1 x2 x3 hE 512 0 512 0 rfl rfl (by omega),
    tap_eq x0 x1 x2 x3 hE 512 16 513 1 rfl rfl (by omega),
    tap_eq x0 x1 x2 x3 hE 512 32 514 2 rfl rfl (by omega),
    tap_eq x0 x1 x2 x3 hE 512 48 515 3 rfl rfl (by omega),
    tap_eq x0 x1 x2 x3 hE 512 64 516 4 rfl rfl (by omega),
    tap_eq x0 x1 x2 x3 hE 512 80 517 5 rfl rfl (by omega),
    tap_eq x0 x1 x2 x3 hE 512 96 518 6 rfl rfl (by omega),
    Ideal.ofBits_zero_f32]
  rfl

/-- Rows 1024 … 1535 of the block: the seven taps accumulated from zero are the convolution at row 1024 + p. -/
theorem piece2 (u : Fin 1) (p : Fin 512) (q : Fin 1024) :
    (k0_pay14 (F := Ideal) (k0_pay3 (F := Ideal) x3) (k0_pay4 (F := Ideal) x0 x1 x2) (k0_pay5 (F := Ideal) x0) (k0_pay12 (F := Ideal) (k0_pay3 (F := Ideal) x3) (k0_pay4 (F := Ideal) x0 x1 x2) (k0_pay5 (F := Ideal) x0)) (k0_pay13 (F := Ideal) (k0_pay4 (F := Ideal) x0 x1 x2)) (constant S512x1024 .f32 0x00000000#32)) (ix3 u p q)
      = Cert.DynConv.conv (blockSeq x0) (tapHead x1) (tapHeadBias x2) (⟨1024 + p.val, by omega⟩ : Fin 2048) q := by
  unfold k0_pay14 k0_pay12 k0_pay13
  dsimp only
  refine (shapeCast_ab_1ab_apply _ _ u p q).trans ?_
  show (Ideal.ofBits .f32 0x00000000#32 : EReal)
        + tapV (k0_pay4 (F := Ideal) x0 x1 x2) (k0_pay3 (F := Ideal) x3) (k0_pay5 (F := Ideal) x0) 1024 0 1024 (by decide) (by decide) (ix2 p q)
        + tapV (k0_pay4 (F := Ideal) x0 x1 x2) (k0_pay3 (F := Ideal) x3) (k0_pay5 (F := Ideal) x0) 1024 16 1025 (by decide) (by decide) (ix2 p q)
        + tapV (k0_pay4 (F := Ideal) x0 x1 x2) (k0_pay3 (F := Ideal) x3) (k0_pay5 (F := Ideal) x0) 1024 32 1026 (by decide) (by decide) (ix2 p q)
        + tapV (k0_pay4 (F := Ideal) x0 x1 x2) (k0_pay3 (F := Ideal) x3) (k0_pay5 (F := Ideal) x0) 1024 48 1027 (by decide) (by decide) (ix2 p q)
        + tapV (k0_pay4 (F := Ideal) x0 x1 x2) (k0_pay3 (F := Ideal) x3) (k0_pay5 (F := Ideal) x0) 1024 64 1028 (by decide) (by decide) (ix2 p q)
        + tapV (k0_pay4 (F := Ideal) x0 x1 x2) (k0_pay3 (F := Ideal) x3) (k0_pay5 (F := Ideal) x0) 1024 80 1029 (by decide) (by decide) (ix2 p q)
        + tapV (k0_pay4 (F := Ideal) x0 x1 x2) (k0_pay3 (F := Ideal) x3) (k0_pay5 (F := Ideal) x0) 1024 96 1030 (by decide) (by decide) (ix2 p q) = _
  rw [tap_eq x0 x1 x2 x3 hE 1024 0 1024 0 rfl rfl (by omega),
    tap_eq x0 x1 x2 x3 hE 1024 16 1025 1 rfl rfl (by omega),
    tap_eq x0 x1 x2 x3 hE 1024 32 1026 2 rfl rfl (by omega),
    tap_eq x0 x1 x2 x3 hE 1024 48 1027 3 rfl rfl (by omega),
    tap_eq x0 x1 x2 x3 hE 1024 64 1028 4 rfl rfl (by omega),
    tap_eq x0 x1 x2 x3 hE 1024 80 1029 5 rfl rfl (by omega),
    tap_eq x0 x1 x2 x3 hE 1024 96 1030 6 rfl rfl (by omega),
    Ideal.ofBits_zero_f32]
  rfl

/-- Rows 1536 … 2047 of the block: the seven taps accumulated from zero are the convolution at row 1536 + p. -/
theorem piece3 (u : Fin 1) (p : Fin 512) (q : Fin 1024) :
    (k0_pay1 (F := Ideal) (k0_pay3 (F := Ideal) x3) (k0_pay4 (F := Ideal) x0 x1 x2) (k0_pay5 (F := Ideal) x0) (k0_pay15 (F := Ideal) (k0_pay3 (F := Ideal) x3) (k0_pay4 (F := Ideal) x0 x1 x2) (k0_pay5 (F := Ideal) x0)) (k0_pay16 (F := Ideal) (k0_pay3 (F := Ideal) x3) (k0_pay4 (F := Ideal) x0 x1 x2)) (k0_pay17 (F := Ideal) (k0_pay5 (F := Ideal) x0))) (ix3 u p q)
      = Cert.DynConv.conv (blockSeq x0) (tapHead x1) (tapHeadBias x2) (⟨1536 + p.val, by omega⟩ : Fin 2048) q := by
  unfold k0_pay1 k0_pay15 k0_pay16 k0_pay17
  dsimp only
  refine (shapeCast_ab_1ab_apply _ _ u p q).trans ?_
  show (Ideal.ofBits .f32 0x00000000#32 : EReal)
        + tapV (k0_pay4 (F := Ideal) x0 x1 x2) (k0_pay3 (F := Ideal) x3) (k0_pay5 (F := Ideal) x0) 1536 0 1536 (by decide) (by decide) (ix2 p q)
        + tapV (k0_pay4 (F := Ideal) x0 x1 x2) (k0_pay3 (F := Ideal) x3) (k0_pay5 (F := Ideal) x0) 1536 16 1537 (by decide) (by decide) (ix2 p q)
        + tapV (k0_pay4 (F := Ideal) x0 x1 x2) (k0_pay3 (F := Ideal) x3) (k0_pay5 (F := Ideal) x0) 1536 32 1538 (by decide) (by decide) (ix2 p q)
        + tapV (k0_pay4 (F := Ideal) x0 x1 x2) (k0_pay3 (F := Ideal) x3) (k0_pay5 (F := Ideal) x0) 1536 48 1539 (by decide) (by decide) (ix2 p q)
        + tapV (k0_pay4 (F := Ideal) x0 x1 x2) (k0_pay3 (F := Ideal) x3) (k0_pay5 (F := Ideal) x0) 1536 64 1540 (by decide) (by decide) (ix2 p q)
        + tapV (k0_pay4 (F := Ideal) x0 x1 x2) (k0_pay3 (F := Ideal) x3) (k0_pay5 (F := Ideal) x0) 1536 80 1541 (by decide) (by decide) (ix2 p q)
        + tapV (k0_pay4 (F := Ideal) x0 x1 x2) (k0_pay3 (F := Ideal) x3) (k0_pay5 (F := Ideal) x0) 1536 96 1542 (by decide) (by decide) (ix2 p q) = _
  rw [tap_eq x0 x1 x2 x3 hE 1536 0 1536 0 rfl rfl (by omega),
    tap_eq x0 x1 x2 x3 hE 1536 16 1537 1 rfl rfl (by omega),
    tap_eq x0 x1 x2 x3 hE 1536 32 1538 2 rfl rfl (by omega),
    tap_eq x0 x1 x2 x3 hE 1536 48 1539 3 rfl rfl (by omega),
    tap_eq x0 x1 x2 x3 hE 1536 64 1540 4 rfl rfl (by omega),
    tap_eq x0 x1 x2 x3 hE 1536 80 1541 5 rfl rfl (by omega),
    tap_eq x0 x1 x2 x3 hE 1536 96 1542 6 rfl rfl (by omega),
    Ideal.ofBits_zero_f32]
  rfl

end

end Cert.KernelIdeal.Pieces

end
-- ==== Proof.KernelBlock.lean ====
/-
  The output block after the body is the convolution of the block of x.

  The body's four stores of 512 rows tile the 2048 × 1024 output block; the store at row a holds, at (p, q), the
  convolution at row a + p. So the block read at any index (u, s, q) is the convolution at (s, q), whatever the order of
  the stores.
-/
import proofs.«165437_j30648886624828_1_alg».proof.Proof.KernelPieces

set_option maxRecDepth 16384

noncomputable section

namespace Cert.KernelIdeal.Pieces

open Cert.KernelIdeal Cert.KernelIdeal.Gen Cert.KernelIdeal.Taps Idealize.ShloMosaic Idealize.ShloMosaic.ValueIdx

/-- The convolution of the block of x, as a function of the block's index. -/
def blockConv (x0 : FVec Ideal S1x2048x1024 .f32) (x1 : FVec Ideal S1024x112 .f32) (x2 : FVec Ideal S112 .f32) :
    S1x2048x1024.Idx → EReal :=
  fun j => Cert.DynConv.conv (blockSeq x0) (tapHead x1) (tapHeadBias x2)
    (⟨(j 1).val, (j 1).isLt⟩ : Fin 2048) (⟨(j 2).val, (j 2).isLt⟩ : Fin 1024)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

section

variable (x0 : FVec Ideal S1x2048x1024 .f32) (x1 : FVec Ideal S1024x112 .f32) (x2 : FVec Ideal S112 .f32)
  (x3 : FVec Ideal S16x1024 .f32)
  (hE : ∀ (k : Fin 16) (q : Fin 1024), x3 (ix2 k q) = if q.val / 64 = k.val then 1 else 0)
include hE

/-- The store at row `a` (its rectangle `r` starts at (0, a, 0) with unit strides) holds a tile of the block's
    convolution, given its value at every (u, p, q). -/
theorem tile_of_piece (a : ℕ) (ha : a + 512 ≤ 2048) (inb : ∀ ax, (![0, a, 0] : Fin 3 → ℕ) ax + S1x512x1024.size ax ≤ S1x2048x1024.size ax)
    (P : FVec Ideal S1x512x1024 .f32)
    (hP : ∀ (u : Fin 1) (p : Fin 512) (q : Fin 1024), P (ix3 u p q)
      = Cert.DynConv.conv (blockSeq x0) (tapHead x1) (tapHeadBias x2) (⟨a + p.val, by omega⟩ : Fin 2048) q)
    (y : S1x512x1024.Idx) :
    P y = blockConv x0 x1 x2 ((Rect.unit (s := S1x2048x1024) ![0, a, 0] S1x512x1024.size inb).emb y) := by
  obtain ⟨u, p, q, rfl⟩ : ∃ (u : Fin 1) (p : Fin 512) (q : Fin 1024), y = ix3 u p q := ⟨y 0, y 1, y 2, eq_ix3 y⟩
  rw [hP u p q]
  unfold blockConv
  congr 1
  · exact Fin.ext (by show a + p.val = a + 1 * p.val; omega)
  · exact Fin.ext (by show q.val = 0 + 1 * q.val; omega)

/-- THE BLOCK AFTER THE BODY, at any index: the convolution of the block of x there. -/
theorem out_apply (j : S1x2048x1024.Idx) :
    out0_4 (F := Ideal) x0 x1 x2 x3 j = blockConv x0 x1 x2 j := by
  unfold out0_4
  simp only [View.ld_unit_zero (S := S1x2048x1024) hz3, View.ld_unit_zero (S := S1024x112) hz2,
    View.ld_unit_zero (S := S112) hz1, View.ld_unit_zero (S := S16x1024) hz2]
  refine View.canon_apply_of_pieces (Val := Elt Ideal) (blockConv x0 x1 x2) _ ?_ j (cover0_4 _ _ _ _ j)
  intro pc hpc
  simp only [List.mem_cons, List.mem_nil_iff, or_false] at hpc
  rcases hpc with rfl | rfl | rfl | rfl
  · exact tile_of_piece x0 x1 x2 x3 hE 1536 (by omega) Facts₀.inb_S1x2048x1024_S1x512x1024_0_1536_0 _ (piece3 x0 x1 x2 x3 hE)
  · exact tile_of_piece x0 x1 x2 x3 hE 1024 (by omega) Facts₀.inb_S1x2048x1024_S1x512x1024_0_1024_0 _ (piece2 x0 x1 x2 x3 hE)
  · exact tile_of_piece x0 x1 x2 x3 hE 512 (by omega) Facts₀.inb_S1x2048x1024_S1x512x1024_0_512_0 _ (piece1 x0 x1 x2 x3 hE)
  · exact tile_of_piece x0 x1 x2 x3 hE 0 (by omega) Facts₀.inb_S1x2048x1024_S1x512x1024_0_0_0 _ (piece0 x0 x1 x2 x3 hE)

end

end Cert.KernelIdeal.Pieces

end
-- ==== Proof.HostOperands.lean ====
/-
  What the kernel's three computed operands hold when the region is entered.

  Before the region the program prepares three arrays from the prediction matrix W (1024 × 112), the bias (112) and
  nothing else:

  • the prediction matrix with its columns regrouped. Column 7·h + i of W belongs to head h and tap i; the program splits
    the 112 columns into (head, tap), swaps the two, and flattens them again, so that column 16·i + h of the result is
    column 7·h + i of W: the seven taps' 16-column groups lie side by side, one group per tap;
  • the bias regrouped the same way: entry 16·i + h of the result is entry 7·h + i of the bias;
  • the 16 × 1024 matrix of zeros and ones that repeats each head over its 64 channels: the 16 × 16 identity pattern
    (row number compared with column number), each column repeated 64 times, so that entry (k, q) is 1 when
    q / 64 = k and 0 otherwise.

  Each is first written as the composed term of the argument arrays, then read at an index given by coordinates. A
  reshape keeps the row-major position, so the index arithmetic is (cc·7 + i)·16 + h = cc·112 + (16·i + h) on the way
  in and cc·112 + (7·h + i) = (cc·16 + h)·7 + i on the way out, with the transpose exchanging h and i in between; for the
  0/1 matrix it is (k·16 + q / 64)·64 + q % 64 = k·1024 + q.
-/
import proofs.«165437_j30648886624828_1_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostOperands

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD)

/-! ## The three operands as composed terms of the argument arrays -/

/-- The regrouped prediction matrix: the matrix split into (head, tap), the two swapped, and flattened again. -/
theorem V_main_v2_eq :
    (V m c main_v2 : S1024x112.Idx → EReal) =
      shapeCast S1024x112 (transpose S1024x7x16 [0, 2, 1]
        (shapeCast S1024x16x7 (m ((c : Thread nD τ).loc main_arg1) : S1024x112.Idx → EReal) shapeCasts_S1024x112_S1024x16x7)
        transposes_S1024x16x7_S1024x7x16_0_2_1) shapeCasts_S1024x7x16_S1024x112 := by
  dsimp only [Gen.V, Gen.hostOps0]
  after_results
  rfl

/-- The regrouped bias: the vector split into (head, tap), the two swapped, and flattened again. -/
theorem V_main_v5_eq :
    (V m c main_v5 : S112.Idx → EReal) =
      shapeCast S112 (transpose S7x16 [1, 0]
        (shapeCast S16x7 (m ((c : Thread nD τ).loc main_arg2) : S112.Idx → EReal) shapeCasts_S112_S16x7)
        transposes_S16x7_S7x16_1_0) shapeCasts_S7x16_S112 := by
  dsimp only [Gen.V, Gen.hostOps0]
  after_results
  rfl

/-- The 16 × 16 identity pattern as the host computes it: row number (plus a zero) compared with column number,
    the one-bit answer read as a number. -/
abbrev eye : S16x16.Idx → EReal :=
  uitofp (F := Ideal) .f32 (cmpi .eq (addi (iotaInDim S16x16 32 0) (broadcastInDim S16x16 ![] bcast_S_S16x16 (constantI S_ 32 0#32)))
    (iotaInDim S16x16 32 1))

/-- The head-repeating matrix: the identity pattern with each column repeated 64 times. -/
theorem V_main_v13_eq :
    (V m c main_v13 : S16x1024.Idx → EReal) =
      shapeCast S16x1024 (broadcastInDim S16x16x64 ![0, 1] bcast_S16x16_S16x16x64_0_1 eye) shapeCasts_S16x16x64_S16x1024 := by
  dsimp only [Gen.V, Gen.hostOps0]
  after_results
  rfl

/-! ## Read at an index -/

/-- Entry 16·i + h of the regrouped bias is entry 7·h + i of the bias. -/
theorem V_main_v5_apply (h : Fin 16) (i : Fin 7) :
    (V m c main_v5 : S112.Idx → EReal) (ix1 (⟨16 * i.val + h.val, by omega⟩ : Fin 112))
      = (m ((c : Thread nD τ).loc main_arg2) : S112.Idx → EReal) (ix1 (⟨7 * h.val + i.val, by omega⟩ : Fin 112)) := by
  refine (congrFun (V_main_v5_eq m c) _).trans ?_
  refine (shapeCast_apply _ shapeCasts_S7x16_S112 _ (ix2 i h) ?_).trans ?_
  · rw [Shape.rowMajor_val_two, Shape.rowMajor_val_one]
    show i.val * 16 + h.val = 16 * i.val + h.val
    omega
  refine (transpose_ix2_apply _ transposes_S16x7_S7x16_1_0 i h).trans ?_
  refine shapeCast_apply _ shapeCasts_S112_S16x7 _ _ ?_
  rw [Shape.rowMajor_val_two, Shape.rowMajor_val_one]
  show 7 * h.val + i.val = h.val * 7 + i.val
  omega

/-- Column 16·i + h of the regrouped prediction matrix is column 7·h + i of the prediction matrix, row by row. -/
theorem V_main_v2_apply (cc : Fin 1024) (h : Fin 16) (i : Fin 7) :
    (V m c main_v2 : S1024x112.Idx → EReal) (ix2 cc (⟨16 * i.val + h.val, by omega⟩ : Fin 112))
      = (m ((c : Thread nD τ).loc main_arg1) : S1024x112.Idx → EReal) (ix2 cc (⟨7 * h.val + i.val, by omega⟩ : Fin 112)) := by
  refine (congrFun (V_main_v2_eq m c) _).trans ?_
  refine (shapeCast_apply _ shapeCasts_S1024x7x16_S1024x112 _ (ix3 cc i h) ?_).trans ?_
  · rw [Shape.rowMajor_val_three, Shape.rowMajor_val_two]
    show (cc.val * 7 + i.val) * 16 + h.val = cc.val * 112 + (16 * i.val + h.val)
    omega
  refine (transpose_ix3_021_apply _ transposes_S1024x16x7_S1024x7x16_0_2_1 cc i h).trans ?_
  refine shapeCast_apply _ shapeCasts_S1024x112_S1024x16x7 _ _ ?_
  rw [Shape.rowMajor_val_two, Shape.rowMajor_val_three]
  show cc.val * 112 + (7 * h.val + i.val) = (cc.val * 16 + h.val) * 7 + i.val
  omega

/-- Row and column numbers below 16 are compared as naturals: the 32-bit words of two such numbers are equal exactly
    when the numbers are. -/
theorem eye_word : ∀ k j : Fin 16,
    IntOp.cmpi .eq (IntOp.addi (BitVec.ofNat 32 k.val) 0#32) (BitVec.ofNat 32 j.val) = if j.val = k.val then 1#1 else 0#1 := by
  decide

/-- The identity pattern at (k, j): 1 on the diagonal, 0 off it. -/
theorem eye_apply (k j : Fin 16) : eye (ix2 k j) = if j.val = k.val then 1 else 0 := by
  show (((IntOp.cmpi .eq (IntOp.addi (BitVec.ofNat 32 k.val) 0#32) (BitVec.ofNat 32 j.val)).toNat : ℝ) : EReal) = _
  rw [eye_word]
  by_cases h : j.val = k.val
  · rw [if_pos h, if_pos h]
    show (((1 : ℕ) : ℝ) : EReal) = 1
    rw [Nat.cast_one, EReal.coe_one]
  · rw [if_neg h, if_neg h]
    show (((0 : ℕ) : ℝ) : EReal) = 0
    rw [Nat.cast_zero, EReal.coe_zero]

/-- The head-repeating matrix at (k, q): channel q belongs to head q / 64, so the entry is 1 exactly when that head is k. -/
theorem V_main_v13_apply (k : Fin 16) (q : Fin 1024) :
    (V m c main_v13 : S16x1024.Idx → EReal) (ix2 k q) = (if q.val / 64 = k.val then 1 else 0 : EReal) := by
  refine (congrFun (V_main_v13_eq m c) _).trans ?_
  refine (shapeCast_apply _ shapeCasts_S16x16x64_S16x1024 _
    (ix3 k (⟨q.val / 64, by omega⟩ : Fin 16) (⟨q.val % 64, by omega⟩ : Fin 64)) ?_).trans ?_
  · rw [Shape.rowMajor_val_three, Shape.rowMajor_val_two]
    show (k.val * 16 + q.val / 64) * 64 + q.val % 64 = k.val * 1024 + q.val
    omega
  refine (broadcastInDim_apply _ bcast_S16x16_S16x16x64_0_1 _ _ (ix2 k (⟨q.val / 64, by omega⟩ : Fin 16)) ?_).trans ?_
  · intro a
    match a with
    | ⟨0, _⟩ => rfl
    | ⟨1, _⟩ => rfl
  exact eye_apply k ⟨q.val / 64, by omega⟩

end Cert.KernelIdeal.HostOperands

end
-- ==== Proof.KernelArray.lean ====
/-
  From blocks to the array: after the run the kernel's result array is the convolution G of the argument arrays.

  Grid point t stages batch entry t of x (block index (t, 0, 0)), the whole regrouped prediction matrix, the whole
  regrouped bias and the whole head-to-channel matrix, and writes back batch entry t of the result. What it writes is
  the convolution of its block of x with the regrouped parameters; regrouping the columns (16·i + h ↔ 7·h + i) is
  undone by reading the parameters through head and tap, so the written block is block t of G. The four blocks cover
  the array: index (b, s, c) lies in point b's block.
-/
import proofs.«165437_j30648886624828_1_alg».proof.Proof.Gen.KernelIdeal.Value
import proofs.«165437_j30648886624828_1_alg».proof.Proof.KernelBlock
import proofs.«165437_j30648886624828_1_alg».proof.Proof.HostOperands

set_option maxRecDepth 16384

noncomputable section

namespace Cert.KernelIdeal.ConvValue

open Cert.KernelIdeal Cert.KernelIdeal.Gen Cert.KernelIdeal.Taps Cert.KernelIdeal.Pieces
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The convolution of the argument arrays as the program is launched with them. -/
def Gk (c : Dev nD) : S4x2048x1024.Idx → EReal :=
  Cert.DynConv.G (m ((c : Thread nD τ).loc main_arg0)) (m ((c : Thread nD τ).loc main_arg1)) (m ((c : Thread nD τ).loc main_arg2))

/-- The printed index maps over the grid: the block of x and of the result move with the point along the batch axis,
    the three parameter windows stay at the origin. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

theorem t_lt (t : Fin cfg0.N) : t.val < 4 := by
  have h : t.val < grid0.N := t.isLt
  have hN : grid0.N = 4 := N_0
  omega

/-- Where the block of x at point t sits in the array. -/
theorem emb0 (t : Fin cfg0.N) (s : Fin 2048) (cc : Fin 1024) :
    ((cfg0.win 0).blk t).view.emb (ix3 (0 : Fin 1) s cc) = ix3 (⟨t.val, t_lt t⟩ : Fin 4) s cc := by
  obtain ⟨e0, e1, e2, -⟩ := idx_facts t
  funext a; apply Fin.ext
  match a with
  | ⟨0, _⟩ => show win0_0.index t (0 : Fin 3) * 1 + 1 * 0 = t.val; omega
  | ⟨1, _⟩ => show win0_0.index t (1 : Fin 3) * 2048 + 1 * s.val = s.val; omega
  | ⟨2, _⟩ => show win0_0.index t (2 : Fin 3) * 1024 + 1 * cc.val = cc.val; omega

/-- The prediction matrix's window is the whole array. -/
theorem emb1 (t : Fin cfg0.N) (y : S1024x112.Idx) : ((cfg0.win 1).blk t).view.emb y = y := by
  obtain ⟨-, -, -, e0, e1, -⟩ := idx_facts t
  funext a; apply Fin.ext
  match a with
  | ⟨0, _⟩ => show win0_1.index t (0 : Fin 2) * 1024 + 1 * (y 0).val = (y 0).val; omega
  | ⟨1, _⟩ => show win0_1.index t (1 : Fin 2) * 112 + 1 * (y 1).val = (y 1).val; omega

/-- The bias's window is the whole array. -/
theorem emb2 (t : Fin cfg0.N) (y : S112.Idx) : ((cfg0.win 2).blk t).view.emb y = y := by
  obtain ⟨-, -, -, -, -, e0, -⟩ := idx_facts t
  funext a; apply Fin.ext
  match a with
  | ⟨0, _⟩ => show win0_2.index t (0 : Fin 1) * 112 + 1 * (y 0).val = (y 0).val; omega

/-- The head-to-channel matrix's window is the whole array. -/
theorem emb3 (t : Fin cfg0.N) (y : S16x1024.Idx) : ((cfg0.win 3).blk t).view.emb y = y := by
  obtain ⟨-, -, -, -, -, -, e0, e1, -⟩ := idx_facts t
  funext a; apply Fin.ext
  match a with
  | ⟨0, _⟩ => show win0_3.index t (0 : Fin 2) * 16 + 1 * (y 0).val = (y 0).val; omega
  | ⟨1, _⟩ => show win0_3.index t (1 : Fin 2) * 1024 + 1 * (y 1).val = (y 1).val; omega

/-- Where the result's block at point t sits in the array. -/
theorem emb4 (t : Fin cfg0.N) (j : S1x2048x1024.Idx) :
    ((cfg0.win 4).blk t).view.emb j
      = ix3 (⟨t.val, t_lt t⟩ : Fin 4) (⟨(j 1).val, (j 1).isLt⟩ : Fin 2048) (⟨(j 2).val, (j 2).isLt⟩ : Fin 1024) := by
  obtain ⟨-, -, -, -, -, -, -, -, e0, e1, e2⟩ := idx_facts t
  have hj0 : (j 0).val < 1 := (j 0).isLt
  funext a; apply Fin.ext
  match a with
  | ⟨0, _⟩ => show win0_4.index t (0 : Fin 3) * 1 + 1 * (j 0).val = t.val; omega
  | ⟨1, _⟩ => show win0_4.index t (1 : Fin 3) * 2048 + 1 * (j 1).val = (j 1).val; omega
  | ⟨2, _⟩ => show win0_4.index t (2 : Fin 3) * 1024 + 1 * (j 2).val = (j 2).val; omega

/-- The block of x at point t is batch entry t of the argument. -/
theorem seq_eq (c : Dev nD) (t : Fin cfg0.N) :
    blockSeq (iblk m c 0 t) = Cert.DynConv.seqOf (m ((c : Thread nD τ).loc main_arg0)) (⟨t.val, t_lt t⟩ : Fin 4) := by
  funext s cc
  show V m c main_arg0 (((cfg0.win 0).blk t).view.emb (ix3 (0 : Fin 1) s cc)) = m ((c : Thread nD τ).loc main_arg0) (ix3 (⟨t.val, t_lt t⟩ : Fin 4) s cc)
  rw [emb0, V_main_arg0]

/-- The regrouped prediction matrix read through head and tap is the argument's. -/
theorem headTap_eq (c : Dev nD) (t : Fin cfg0.N) :
    tapHead (iblk m c 1 t) = Cert.DynConv.headTap (m ((c : Thread nD τ).loc main_arg1)) := by
  funext cc h i
  show V m c main_v2 (((cfg0.win 1).blk t).view.emb (ix2 cc (⟨16 * i.val + h.val, by omega⟩ : Fin 112))) = _
  rw [emb1]
  exact Cert.KernelIdeal.HostOperands.V_main_v2_apply m c cc h i

/-- The regrouped bias read through head and tap is the argument's. -/
theorem headTapBias_eq (c : Dev nD) (t : Fin cfg0.N) :
    tapHeadBias (iblk m c 2 t) = Cert.DynConv.headTapBias (m ((c : Thread nD τ).loc main_arg2)) := by
  funext h i
  show V m c main_v5 (((cfg0.win 2).blk t).view.emb (ix1 (⟨16 * i.val + h.val, by omega⟩ : Fin 112))) = _
  rw [emb2]
  exact Cert.KernelIdeal.HostOperands.V_main_v5_apply m c h i

/-- The head-to-channel matrix as every point finds it: 1 at (q / 64, q), 0 elsewhere. -/
theorem expand_eq (c : Dev nD) (t : Fin cfg0.N) (k : Fin 16) (q : Fin 1024) :
    (iblk m c 3 t : S16x1024.Idx → EReal) (ix2 k q) = (if q.val / 64 = k.val then 1 else 0 : EReal) := by
  show V m c main_v13 (((cfg0.win 3).blk t).view.emb (ix2 k q)) = _
  rw [emb3]
  exact Cert.KernelIdeal.HostOperands.V_main_v13_apply m c k q

/-- WHAT POINT `t` WRITES BACK is block `t` of the convolution of the argument arrays. -/
theorem flushed_eq (c : Dev nD) (t : Fin cfg0.N) :
    (dats m 0 c).flushed 4 t = ((cfg0.win 4).blk t).view.read (Elt Ideal) (Gk m c) := by
  rw [Cert.KernelIdeal.Value.flushed4]
  funext j
  show out0_4 (F := Ideal) (iblk m c 0 t) (iblk m c 1 t) (iblk m c 2 t) (iblk m c 3 t) j = Gk m c (((cfg0.win 4).blk t).view.emb j)
  refine (out_apply (iblk m c 0 t) (iblk m c 1 t) (iblk m c 2 t) (iblk m c 3 t) (expand_eq m c t) j).trans ?_
  rw [emb4]
  unfold blockConv Gk
  rw [Cert.DynConv.G_ix3, seq_eq, headTap_eq, headTapBias_eq]

/-- An index of the array is in point `t`'s block iff each coordinate is in the block's range on its axis. -/
theorem mem_blk (t : Fin cfg0.N) (i : S4x2048x1024.Idx) :
    i ∈ ((cfg0.win 4).blk t).view.set ↔ ∀ a : Fin 3, win0_4.index t a * S1x2048x1024.size a ≤ (i a).val ∧ (i a).val < win0_4.index t a * S1x2048x1024.size a + S1x2048x1024.size a := by
  show i ∈ ((View.whole main_v14).slice (win0_4.rect t)).set ↔ _
  rw [View.set_slice_whole, Rect.mem_set_unit]
  exact Iff.rfl

/-- Every index of the result lies in the block of the point its batch coordinate names. -/
theorem cover (i : S4x2048x1024.Idx) :
    ∃ t : Fin cfg0.N, (cfg0.win 4).flush t = true ∧ i ∈ ((cfg0.win 4).blk t).view.set := by
  have h0 : (i 0).val < 4 := (i 0).isLt
  have h1 : (i 1).val < 2048 := (i 1).isLt
  have h2 : (i 2).val < 1024 := (i 2).isLt
  have hN : grid0.N = 4 := N_0
  refine ⟨(⟨(i 0).val, by show (i 0).val < grid0.N; omega⟩ : Fin cfg0.N), flush0_4 _, ?_⟩
  rw [mem_blk]
  obtain ⟨-, -, -, -, -, -, -, -, e0, e1, e2⟩ := idx_facts (⟨(i 0).val, by show (i 0).val < grid0.N; omega⟩ : Fin cfg0.N)
  intro a
  match a with
  | ⟨0, _⟩ => show win0_4.index _ (0 : Fin 3) * 1 ≤ (i 0).val ∧ (i 0).val < win0_4.index _ (0 : Fin 3) * 1 + 1; rw [e0]; show (i 0).val * 1 ≤ (i 0).val ∧ (i 0).val < (i 0).val * 1 + 1; omega
  | ⟨1, _⟩ => show win0_4.index _ (1 : Fin 3) * 2048 ≤ (i 1).val ∧ (i 1).val < win0_4.index _ (1 : Fin 3) * 2048 + 2048; rw [e1]; omega
  | ⟨2, _⟩ => show win0_4.index _ (2 : Fin 3) * 1024 ≤ (i 2).val ∧ (i 2).val < win0_4.index _ (2 : Fin 3) * 1024 + 1024; rw [e2]; omega

/-- THE ARRAY after the run is the convolution of the argument arrays. -/
theorem final (c : Dev nD) : (dats m 0 c).arrAt 4 cfg0.N = Gk m c :=
  (dats m 0 c).arrAt_eq_of_cover 4 (Gk m c) (fun t _ => flushed_eq m c t) cover

/-- The kernel's run, read: the result array is the convolution of the arguments, the arguments unchanged. -/
theorem run : θ_run defs (onTc (τ := τ) (main (F := Ideal))) ⟨m, fun _ => 0, ρ⟩ fun r => ∀ c : Dev nD,
      r.2.mem ((c : Thread nD τ).loc main_v14) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.ConvValue

end
-- ==== Proof.RefConv.lean ====
/-
  The reference program computes the dynamic depthwise convolution of ConvSpec.

  The reference predicts the weights by one matrix product plus a broadcast bias and views them as
  (batch, position, head, tap): entry (b, s, h, i) is column 7·h + i of the product's row (b, s). It views the input
  as (batch, position, head, channel-in-head): channel c = 64·h + d. It pads the position axis with three zero rows at
  either end, and accumulates from a zero array, for the taps i = 0, …, 6 in order, the product of the weights' tap i
  (the same for every channel of a head) with the window of the padded array that starts at row i. Read index by
  index that is ConvSpec's `conv`, and the last reshape back to (batch, position, channel) puts entry (b, s, h, d) at
  channel 64·h + d, whose head is h again.
-/
import proofs.«165437_j30648886624828_1_alg».proof.Proof.ReadP
import proofs.«165437_j30648886624828_1_alg».proof.Proof.ConvSpec
import Idealize.ShloMosaic.Lib.KernelVsHost
import Idealize.ShloMosaic.Lib.DynamicIndex

noncomputable section

namespace Cert.ReferenceIdeal.RefValue

open Cert.ReferenceIdeal Cert.ReferenceIdeal.ReadP Cert.DynConv
open Idealize.ShloMosaic Idealize.ShloMosaic.ValueIdx Idealize.ShloMosaic.StableHlo

variable (x0 : FVec Ideal S4x2048x1024 .f32) (x1 : FVec Ideal S1024x112 .f32) (x2 : FVec Ideal S112 .f32)

/-! ## The predicted weights -/

/-- The weights viewed as (batch, position, head, tap): the matrix product's row (b, s) at column 7·h + i, plus the
    bias there. The row-major position of (b, s, h, i) in the four-axis view is that of (b, s, 7·h + i) in the
    three-axis one. -/
theorem weights_apply (b : Fin 4) (s : Fin 2048) (h : Fin 16) (i : Fin 7) :
    val_main_v4 (F := Ideal) x0 x1 x2 (ix4 b s h i)
      = weight (seqOf x0 b) (headTap x1) (headTapBias x2) s h i := by
  have hb : b.val < 4 := b.isLt
  have hs : s.val < 2048 := s.isLt
  have hh : h.val < 16 := h.isLt
  have hi : i.val < 7 := i.isLt
  rw [val_main_v4_apply, val_main_v3_apply, val_main_v0_apply, val_main_v2_apply, val_main_v1_apply]
  unfold weight seqOf headTap headTapBias
  have el : ∀ k : Fin 1024, lidx_main_v0 (idx_main_v4 (ix4 b s h i)) k = ix3 b s k := fun k => funext fun a => Fin.ext (by
    match a with
    | ⟨0, _⟩ => show (((b.val * 2048 + s.val) * 16 + h.val) * 7 + i.val) / 229376 = b.val; omega
    | ⟨1, _⟩ => show (((b.val * 2048 + s.val) * 16 + h.val) * 7 + i.val) / 112 % 2048 = s.val; omega
    | ⟨2, _⟩ => rfl)
  have er : ∀ k : Fin 1024, ridx_main_v0 (idx_main_v4 (ix4 b s h i)) k
      = ix2 k (⟨7 * h.val + i.val, by omega⟩ : Fin 112) := fun k => funext fun a => Fin.ext (by
    match a with
    | ⟨0, _⟩ => rfl
    | ⟨1, _⟩ => show (((b.val * 2048 + s.val) * 16 + h.val) * 7 + i.val) % 112 = 7 * h.val + i.val; omega)
  have eb : idx_main_v1 (idx_main_v2 (idx_main_v4 (ix4 b s h i)))
      = ix1 (⟨7 * h.val + i.val, by omega⟩ : Fin 112) := funext fun a => Fin.ext (by
    match a with
    | ⟨0, _⟩ => show (((b.val * 2048 + s.val) * 16 + h.val) * 7 + i.val) % 112 = 7 * h.val + i.val; omega)
  rw [eb, Ideal.addf_def]
  refine congrArg (· + _) (Finset.sum_congr rfl fun k _ => ?_)
  rw [el k, er k]

/-- Tap i's weights spread over the channels of a head: the slice of the four-axis weights at tap i, broadcast along
    the channel-in-head axis, read at (b, s, h, d), is the weight of head h, tap i at (b, s), whatever d. Stated over
    the slice offset ![0, 0, 0, i] with any proofs of the two shape conditions, so the seven taps are one lemma. -/
theorem tapWeights_apply (i : Fin 7)
    (hsl : S4x2048x16x7.Slices (![0, 0, 0, i.val] : Fin 4 → Nat) S4x2048x16x1)
    (hbc : S4x2048x16x1.BroadcastsInDim S4x2048x16x64 (![0, 1, 2, 3] : Fin 4 → Fin S4x2048x16x64.rank))
    (b : Fin 4) (s : Fin 2048) (h : Fin 16) (d : Fin 64) :
    broadcastInDim S4x2048x16x64 ![0, 1, 2, 3] hbc
        (extractStridedSlice S4x2048x16x1 ![0, 0, 0, i.val] (val_main_v4 (F := Ideal) x0 x1 x2) hsl) (ix4 b s h d)
      = weight (seqOf x0 b) (headTap x1) (headTapBias x2) s h i := by
  refine (broadcastInDim_apply _ hbc _ (ix4 b s h d) (ix4 b s h (0 : Fin 1)) (fun a => by
    match a with
    | ⟨0, _⟩ => show b.val = if (4 : Nat) = 1 then 0 else b.val; rw [if_neg (by decide)]
    | ⟨1, _⟩ => show s.val = if (2048 : Nat) = 1 then 0 else s.val; rw [if_neg (by decide)]
    | ⟨2, _⟩ => show h.val = if (16 : Nat) = 1 then 0 else h.val; rw [if_neg (by decide)]
    | ⟨3, _⟩ => show 0 = if (1 : Nat) = 1 then 0 else d.val; rw [if_pos rfl])).trans ?_
  refine (extractStridedSlice_apply _ _ hsl (ix4 b s h (0 : Fin 1)) (ix4 b s h i) (fun a => by
    match a with
    | ⟨0, _⟩ => show b.val = 0 + b.val; omega
    | ⟨1, _⟩ => show s.val = 0 + s.val; omega
    | ⟨2, _⟩ => show h.val = 0 + h.val; omega
    | ⟨3, _⟩ => show i.val = i.val + 0; omega)).trans ?_
  exact weights_apply x0 x1 x2 b s h i

/-! ## The padded input, read through a window that starts at row i -/

/-- The window of the padded four-axis input that starts at row i, read at (b, s, h, d): row s + i of the padded
    sequence of batch entry b, at channel 64·h + d. The starts are constants inside the padded array, so the window is
    the static slice at rows i, …, i + 2047; row s + i is a row of the input exactly when 3 ≤ s + i < 2051, and is
    the padding value, the integer 0 converted, otherwise. Stated over any start function that computes to (0, i, 0, 0)
    and any proof that the window's shape fits, so the seven windows are one lemma. -/
theorem window_apply (i : Fin 7) (start : Fin 4 → Int)
    (hstart : ∀ a : Fin 4, start a = (((![0, i.val, 0, 0] : Fin 4 → Nat) a : Nat) : Int))
    (hfit : S4x2054x16x64.Slices (fun _ => 0) S4x2048x16x64)
    (b : Fin 4) (s : Fin 2048) (h : Fin 16) (d : Fin 64) :
    Host.dynamicSlice (s := S4x2054x16x64) S4x2048x16x64 (val_main_v6 (F := Ideal) x0) start hfit (ix4 b s h d)
      = padded (seqOf x0 b) (s.val + i.val) (⟨64 * h.val + d.val, by omega⟩ : Fin 1024) := by
  have hb : b.val < 4 := b.isLt
  have hs : s.val < 2048 := s.isLt
  have hh : h.val < 16 := h.isLt
  have hd : d.val < 64 := d.isLt
  have hi : i.val < 7 := i.isLt
  have hoff : S4x2054x16x64.Slices (![0, i.val, 0, 0] : Fin 4 → Nat) S4x2048x16x64 := ⟨rfl, fun a => by
    match a with
    | ⟨0, _⟩ => show 0 + 4 ≤ 4; omega
    | ⟨1, _⟩ => show i.val + 2048 ≤ 2054; omega
    | ⟨2, _⟩ => show 0 + 16 ≤ 16; omega
    | ⟨3, _⟩ => show 0 + 64 ≤ 64; omega⟩
  refine (congrFun (Host.dynamicSlice_eq_extractStridedSlice S4x2048x16x64 _ start _ hfit hoff hstart) _).trans ?_
  refine (extractStridedSlice_apply _ _ hoff (ix4 b s h d) (ix4 b (⟨s.val + i.val, by omega⟩ : Fin 2054) h d) (fun a => by
    match a with
    | ⟨0, _⟩ => show b.val = 0 + b.val; omega
    | ⟨1, _⟩ => show s.val + i.val = i.val + s.val; omega
    | ⟨2, _⟩ => show h.val = 0 + h.val; omega
    | ⟨3, _⟩ => show d.val = 0 + d.val; omega)).trans ?_
  unfold val_main_v6
  by_cases hin : 3 ≤ s.val + i.val ∧ s.val + i.val < 2051
  · refine (pad_apply_of_inside _ _ _ _ _ _ _ _ (ix4 b (⟨s.val + i.val - 3, by omega⟩ : Fin 2048) h d) (fun a => by
      match a with
      | ⟨0, _⟩ => show b.val = 0 + b.val * (0 + 1); omega
      | ⟨1, _⟩ => show s.val + i.val = 3 + (s.val + i.val - 3) * (0 + 1); omega
      | ⟨2, _⟩ => show h.val = 0 + h.val * (0 + 1); omega
      | ⟨3, _⟩ => show d.val = 0 + d.val * (0 + 1); omega)).trans ?_
    rw [val_main_v5_apply]
    unfold padded seqOf
    rw [dif_pos hin]
    exact congrArg x0 (funext fun a => Fin.ext (by
      match a with
      | ⟨0, _⟩ =>
        show (((b.val * 2048 + (s.val + i.val - 3)) * 16 + h.val) * 64 + d.val) / 2097152 = b.val; omega
      | ⟨1, _⟩ =>
        show (((b.val * 2048 + (s.val + i.val - 3)) * 16 + h.val) * 64 + d.val) / 1024 % 2048 = s.val + i.val - 3
        omega
      | ⟨2, _⟩ =>
        show (((b.val * 2048 + (s.val + i.val - 3)) * 16 + h.val) * 64 + d.val) % 1024 = 64 * h.val + d.val
        omega))
  · refine (pad_apply_of_not_inside _ _ _ _ _ _ _ _ (1 : Fin 4) (fun hc => hin ?_)).trans ?_
    · have h1 : 3 ≤ s.val + i.val := hc.1
      have h2 : (s.val + i.val - 3) / (0 + 1) < 2048 := hc.2.2
      omega
    · unfold padded
      rw [dif_neg hin]
      show ((((0#32 : BitVec 32).toInt : ℝ)) : EReal) = 0
      simp

/-! ## The seven taps of the program, as instances of the two lemmas -/

theorem weights0 (b : Fin 4) (s : Fin 2048) (h : Fin 16) (d : Fin 64) :
    val_main_v10 (F := Ideal) x0 x1 x2 (ix4 b s h d)
      = weight (seqOf x0 b) (headTap x1) (headTapBias x2) s h 0 := by
  unfold val_main_v10 val_main_v8
  exact tapWeights_apply x0 x1 x2 0 _ _ b s h d

theorem window0 (b : Fin 4) (s : Fin 2048) (h : Fin 16) (d : Fin 64) :
    val_main_v9 (F := Ideal) x0 (ix4 b s h d)
      = padded (seqOf x0 b) (s.val + (0 : Fin 7).val) (⟨64 * h.val + d.val, by omega⟩ : Fin 1024) := by
  unfold val_main_v9
  exact window_apply x0 0 _ (fun a => by
    match a with
    | ⟨0, _⟩ => rfl
    | ⟨1, _⟩ => rfl
    | ⟨2, _⟩ => rfl
    | ⟨3, _⟩ => rfl) _ b s h d

theorem weights1 (b : Fin 4) (s : Fin 2048) (h : Fin 16) (d : Fin 64) :
    val_main_v15 (F := Ideal) x0 x1 x2 (ix4 b s h d)
      = weight (seqOf x0 b) (headTap x1) (headTapBias x2) s h 1 := by
  unfold val_main_v15 val_main_v13
  exact tapWeights_apply x0 x1 x2 1 _ _ b s h d

theorem window1 (b : Fin 4) (s : Fin 2048) (h : Fin 16) (d : Fin 64) :
    val_main_v14 (F := Ideal) x0 (ix4 b s h d)
      = padded (seqOf x0 b) (s.val + (1 : Fin 7).val) (⟨64 * h.val + d.val, by omega⟩ : Fin 1024) := by
  unfold val_main_v14
  exact window_apply x0 1 _ (fun a => by
    match a with
    | ⟨0, _⟩ => rfl
    | ⟨1, _⟩ => rfl
    | ⟨2, _⟩ => rfl
    | ⟨3, _⟩ => rfl) _ b s h d

theorem weights2 (b : Fin 4) (s : Fin 2048) (h : Fin 16) (d : Fin 64) :
    val_main_v20 (F := Ideal) x0 x1 x2 (ix4 b s h d)
      = weight (seqOf x0 b) (headTap x1) (headTapBias x2) s h 2 := by
  unfold val_main_v20 val_main_v18
  exact tapWeights_apply x0 x1 x2 2 _ _ b s h d

theorem window2 (b : Fin 4) (s : Fin 2048) (h : Fin 16) (d : Fin 64) :
    val_main_v19 (F := Ideal) x0 (ix4 b s h d)
      = padded (seqOf x0 b) (s.val + (2 : Fin 7).val) (⟨64 * h.val + d.val, by omega⟩ : Fin 1024) := by
  unfold val_main_v19
  exact window_apply x0 2 _ (fun a => by
    match a with
    | ⟨0, _⟩ => rfl
    | ⟨1, _⟩ => rfl
    | ⟨2, _⟩ => rfl
    | ⟨3, _⟩ => rfl) _ b s h d

theorem weights3 (b : Fin 4) (s : Fin 2048) (h : Fin 16) (d : Fin 64) :
    val_main_v25 (F := Ideal) x0 x1 x2 (ix4 b s h d)
      = weight (seqOf x0 b) (headTap x1) (headTapBias x2) s h 3 := by
  unfold val_main_v25 val_main_v23
  exact tapWeights_apply x0 x1 x2 3 _ _ b s h d

theorem window3 (b : Fin 4) (s : Fin 2048) (h : Fin 16) (d : Fin 64) :
    val_main_v24 (F := Ideal) x0 (ix4 b s h d)
      = padded (seqOf x0 b) (s.val + (3 : Fin 7).val) (⟨64 * h.val + d.val, by omega⟩ : Fin 1024) := by
  unfold val_main_v24
  exact window_apply x0 3 _ (fun a => by
    match a with
    | ⟨0, _⟩ => rfl
    | ⟨1, _⟩ => rfl
    | ⟨2, _⟩ => rfl
    | ⟨3, _⟩ => rfl) _ b s h d

theorem weights4 (b : Fin 4) (s : Fin 2048) (h : Fin 16) (d : Fin 64) :
    val_main_v30 (F := Ideal) x0 x1 x2 (ix4 b s h d)
      = weight (seqOf x0 b) (headTap x1) (headTapBias x2) s h 4 := by
  unfold val_main_v30 val_main_v28
  exact tapWeights_apply x0 x1 x2 4 _ _ b s h d

theorem window4 (b : Fin 4) (s : Fin 2048) (h : Fin 16) (d : Fin 64) :
    val_main_v29 (F := Ideal) x0 (ix4 b s h d)
      = padded (seqOf x0 b) (s.val + (4 : Fin 7).val) (⟨64 * h.val + d.val, by omega⟩ : Fin 1024) := by
  unfold val_main_v29
  exact window_apply x0 4 _ (fun a => by
    match a with
    | ⟨0, _⟩ => rfl
    | ⟨1, _⟩ => rfl
    | ⟨2, _⟩ => rfl
    | ⟨3, _⟩ => rfl) _ b s h d

theorem weights5 (b : Fin 4) (s : Fin 2048) (h : Fin 16) (d : Fin 64) :
    val_main_v35 (F := Ideal) x0 x1 x2 (ix4 b s h d)
      = weight (seqOf x0 b) (headTap x1) (headTapBias x2) s h 5 := by
  unfold val_main_v35 val_main_v33
  exact tapWeights_apply x0 x1 x2 5 _ _ b s h d

theorem window5 (b : Fin 4) (s : Fin 2048) (h : Fin 16) (d : Fin 64) :
    val_main_v34 (F := Ideal) x0 (ix4 b s h d)
      = padded (seqOf x0 b) (s.val + (5 : Fin 7).val) (⟨64 * h.val + d.val, by omega⟩ : Fin 1024) := by
  unfold val_main_v34
  exact window_apply x0 5 _ (fun a => by
    match a with
    | ⟨0, _⟩ => rfl
    | ⟨1, _⟩ => rfl
    | ⟨2, _⟩ => rfl
    | ⟨3, _⟩ => rfl) _ b s h d

theorem weights6 (b : Fin 4) (s : Fin 2048) (h : Fin 16) (d : Fin 64) :
    val_main_v40 (F := Ideal) x0 x1 x2 (ix4 b s h d)
      = weight (seqOf x0 b) (headTap x1) (headTapBias x2) s h 6 := by
  unfold val_main_v40 val_main_v38
  exact tapWeights_apply x0 x1 x2 6 _ _ b s h d

theorem window6 (b : Fin 4) (s : Fin 2048) (h : Fin 16) (d : Fin 64) :
    val_main_v39 (F := Ideal) x0 (ix4 b s h d)
      = padded (seqOf x0 b) (s.val + (6 : Fin 7).val) (⟨64 * h.val + d.val, by omega⟩ : Fin 1024) := by
  unfold val_main_v39
  exact window_apply x0 6 _ (fun a => by
    match a with
    | ⟨0, _⟩ => rfl
    | ⟨1, _⟩ => rfl
    | ⟨2, _⟩ => rfl
    | ⟨3, _⟩ => rfl) _ b s h d

/-! ## One tap's product, the accumulation, and the reshape back -/

/-- A tap's product at (b, s, h, d) is ConvSpec's tap at channel 64·h + d: that channel's head is h. -/
theorem tap_eq (b : Fin 4) (s : Fin 2048) (h : Fin 16) (d : Fin 64) (i : Fin 7) :
    weight (seqOf x0 b) (headTap x1) (headTapBias x2) s h i
        * padded (seqOf x0 b) (s.val + i.val) (⟨64 * h.val + d.val, by omega⟩ : Fin 1024)
      = tap (seqOf x0 b) (headTap x1) (headTapBias x2) s (⟨64 * h.val + d.val, by omega⟩ : Fin 1024) i := by
  have hh : h.val < 16 := h.isLt
  have hd : d.val < 64 := d.isLt
  have e : h = (⟨(64 * h.val + d.val) / 64, by omega⟩ : Fin 16) :=
    Fin.ext (by show h.val = (64 * h.val + d.val) / 64; omega)
  unfold tap
  exact congrArg (fun t : Fin 16 => weight (seqOf x0 b) (headTap x1) (headTapBias x2) s t i
      * padded (seqOf x0 b) (s.val + i.val) (⟨64 * h.val + d.val, by omega⟩ : Fin 1024)) e

/-- The accumulated array at (b, s, h, d): zero plus the seven taps in order, ConvSpec's `conv` at channel 64·h + d. -/
theorem acc_apply (b : Fin 4) (s : Fin 2048) (h : Fin 16) (d : Fin 64) :
    val_main_v42 (F := Ideal) x0 x1 x2 (ix4 b s h d)
      = conv (seqOf x0 b) (headTap x1) (headTapBias x2) s (⟨64 * h.val + d.val, by omega⟩ : Fin 1024) := by
  have hz : val_main_v7 (F := Ideal) (ix4 b s h d) = 0 := by
    rw [val_main_v7_apply, val_main_cst_apply]
    exact Ideal.ofBits_zero_f32
  rw [val_main_v42_apply, val_main_v37_apply, val_main_v32_apply, val_main_v27_apply, val_main_v22_apply,
    val_main_v17_apply, val_main_v12_apply, val_main_v41_apply, val_main_v36_apply, val_main_v31_apply,
    val_main_v26_apply, val_main_v21_apply, val_main_v16_apply, val_main_v11_apply, hz,
    weights0, weights1, weights2, weights3, weights4, weights5, weights6,
    window0, window1, window2, window3, window4, window5, window6]
  simp only [Ideal.addf_def, Ideal.mulf_def]
  rw [tap_eq, tap_eq, tap_eq, tap_eq, tap_eq, tap_eq, tap_eq]
  rfl

/-- THE REFERENCE IS G. The last reshape reads the accumulated array at (b, s, c / 64, c % 64), whose channel is
    64·(c / 64) + c % 64 = c. -/
theorem ref_eq_G :
    Cert.ReferenceIdeal.ReadP.val_main_v43 (F := Ideal) x0 x1 x2 = Cert.DynConv.G x0 x1 x2 := by
  funext j
  obtain ⟨b, s, c, rfl⟩ : ∃ (b : Fin 4) (s : Fin 2048) (c : Fin 1024), j = ix3 b s c := ⟨j 0, j 1, j 2, eq_ix3 j⟩
  have hb : b.val < 4 := b.isLt
  have hs : s.val < 2048 := s.isLt
  have hc : c.val < 1024 := c.isLt
  have e : idx_main_v43 (ix3 b s c)
      = ix4 b s (⟨c.val / 64, by omega⟩ : Fin 16) (⟨c.val % 64, by omega⟩ : Fin 64) := funext fun a => Fin.ext (by
    match a with
    | ⟨0, _⟩ => show ((b.val * 2048 + s.val) * 1024 + c.val) / 2097152 = b.val; omega
    | ⟨1, _⟩ => show ((b.val * 2048 + s.val) * 1024 + c.val) / 1024 % 2048 = s.val; omega
    | ⟨2, _⟩ => show ((b.val * 2048 + s.val) * 1024 + c.val) / 64 % 16 = c.val / 64; omega
    | ⟨3, _⟩ => show ((b.val * 2048 + s.val) * 1024 + c.val) % 64 = c.val % 64; omega)
  rw [val_main_v43_apply, e, acc_apply, G_ix3]
  exact congrArg (conv (seqOf x0 b) (headTap x1) (headTapBias x2) s)
    (Fin.ext (by show 64 * (c.val / 64) + c.val % 64 = c.val; omega))

end Cert.ReferenceIdeal.RefValue

end
-- ==== Proof.lean ====
/-
  Dynamic depthwise convolution: the kernel against its reference, on the extended reals.

  Both programs compute, for an input x (4 × 2048 × 1024), a prediction matrix W (1024 × 112) and a bias (112), the
  array G of Proof/ConvSpec.lean: at (b, s, c), with h = c / 64 the head of channel c, the seven products
      ((sum over cc of x (b, s, cc) · W (cc, 7·h + i)) + bias (7·h + i)) · padded x (b, s + i, c),   i = 0, …, 6,
  accumulated from zero in order, where the sequence axis is padded by three zero rows at either end.

  The reference does this literally (a matrix product, a reshape into heads and taps, a pad, seven shifted slices).
  The kernel regroups the columns of W and of the bias on the host from 7·h + i to 16·i + h, so that each tap's sixteen
  head weights are contiguous, and spreads a head's weight over its 64 channels by multiplying with the fixed 0/1
  matrix e (k, q) = [q / 64 = k]: the sum over k of weight (k) · e (k, q) is weight (q / 64), since a · 0 = 0 and
  a · 1 = a on the extended reals whatever a is. It writes each batch entry's 2048 rows in four stores of 512 rows.
  No step needs the inputs to be finite: the precondition is never opened.

  The kernel's frames are the generated class-A frames; the reference's frame is its run with the result dropped;
  the ideal pass rewrote nothing, so there is nothing to preserve.
-/
import proofs.«165437_j30648886624828_1_alg».proof.Defs
import proofs.«165437_j30648886624828_1_alg».proof.Proof.Gen.Kernel
import proofs.«165437_j30648886624828_1_alg».proof.Proof.Gen.Kernel.Skeleton
import proofs.«165437_j30648886624828_1_alg».proof.Proof.Gen.Kernel.Launch
import proofs.«165437_j30648886624828_1_alg».proof.Proof.Gen.Kernel.Points
import proofs.«165437_j30648886624828_1_alg».proof.Proof.Gen.Kernel.Frame
import proofs.«165437_j30648886624828_1_alg».proof.Proof.Gen.KernelIdeal
import proofs.«165437_j30648886624828_1_alg».proof.Proof.Gen.KernelIdeal.Skeleton
import proofs.«165437_j30648886624828_1_alg».proof.Proof.Gen.KernelIdeal.Launch
import proofs.«165437_j30648886624828_1_alg».proof.Proof.Gen.KernelIdeal.Points
import proofs.«165437_j30648886624828_1_alg».proof.Proof.Gen.KernelIdeal.Frame
import proofs.«165437_j30648886624828_1_alg».proof.Proof.Gen.ReferenceIdeal
import proofs.«165437_j30648886624828_1_alg».proof.Proof.Gen.KernelIdeal.Value
import proofs.«165437_j30648886624828_1_alg».proof.Proof.RunP
import proofs.«165437_j30648886624828_1_alg».proof.Proof.ReadP
import proofs.«165437_j30648886624828_1_alg».proof.Proof.Gen.Pre_finite_inputs
import proofs.«165437_j30648886624828_1_alg».proof.Proof.KernelArray
import proofs.«165437_j30648886624828_1_alg».proof.Proof.RefConv
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both runs end with the result array at the convolution G of the (agreeing) argument arrays. -/
theorem algebraic : Cert.algebraic_KernelIdeal_ReferenceIdeal := by
  intro m ρ m' ρ' _ hagree
  refine ⟨fun c => Cert.KernelIdeal.ConvValue.Gk m c, Cert.KernelIdeal.ConvValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v43_eq, Cert.ReferenceIdeal.RefValue.ref_eq_G,
    (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
